-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x512x512 : Shape := ⟨4, ![64, 1, 512, 512]⟩
abbrev S_ : Shape := ⟨0, ![]⟩

class Facts : Prop where
  bcast_S_S64x1x512x512 : S_.BroadcastsInDim S64x1x512x512 (![] : Fin 0 → Fin S64x1x512x512.rank)
  reducesTo_S64x1x512x512_S_d0_1_2_3 : S64x1x512x512.ReducesTo [0, 1, 2, 3] S_
  h_S_ : 0 < S_.numel

variable [Facts]

def fn {F : FTy → Type} [FloatOps F] (main_arg0 : FVec F S64x1x512x512 .f32) (main_arg1 : FVec F S64x1x512x512 .f32) : IVec S_ 1 :=
  let main_v0 : FVec F S64x1x512x512 .f32 := Host.absf main_arg0
  let main_cst : FVec F S_ .f32 := constant S_ .f32 0x7F800000#32
  let main_v1 : FVec F S64x1x512x512 .f32 := broadcastInDim S64x1x512x512 ![] bcast_S_S64x1x512x512 main_cst
  let main_v2 : IVec S64x1x512x512 1 := cmpf .olt main_v0 main_v1
  let main_c : IVec S_ 1 := constantI S_ 1 1#1
  let main_v3 : IVec S_ 1 := (fun x v => Host.reduce IntOp.andi x v reducesTo_S64x1x512x512_S_d0_1_2_3 h_S_) main_v2 main_c
  let main_v4 : FVec F S64x1x512x512 .f32 := Host.absf main_arg1
  let main_cst_0 : FVec F S_ .f32 := constant S_ .f32 0x7F800000#32
  let main_v5 : FVec F S64x1x512x512 .f32 := broadcastInDim S64x1x512x512 ![] bcast_S_S64x1x512x512 main_cst_0
  let main_v6 : IVec S64x1x512x512 1 := cmpf .olt main_v4 main_v5
  let main_c_1 : IVec S_ 1 := constantI S_ 1 1#1
  let main_v7 : IVec S_ 1 := (fun x v => Host.reduce IntOp.andi x v reducesTo_S64x1x512x512_S_d0_1_2_3 h_S_) main_v6 main_c_1
  let main_v8 : IVec S_ 1 := andi main_v3 main_v7
  main_v8
-- ==== Kernel.lean ====
abbrev S64x1x512x512 : Shape := ⟨4, ![64, 1, 512, 512]⟩
abbrev S131072x128 : Shape := ⟨2, ![131072, 128]⟩
abbrev S16x1x128 : Shape := ⟨3, ![16, 1, 128]⟩
abbrev S8192x128 : Shape := ⟨2, ![8192, 128]⟩
abbrev S1x1x128 : Shape := ⟨3, ![1, 1, 128]⟩
abbrev S8192 : Shape := ⟨1, ![8192]⟩
abbrev S8192x1 : Shape := ⟨2, ![8192, 1]⟩
abbrev S1 : Shape := ⟨1, ![1]⟩
abbrev S1x1 : Shape := ⟨2, ![1, 1]⟩
abbrev S1x7 : Shape := ⟨2, ![1, 7]⟩
abbrev S1x121 : Shape := ⟨2, ![1, 121]⟩
abbrev S1x128 : Shape := ⟨2, ![1, 128]⟩
abbrev S16x128 : Shape := ⟨2, ![16, 128]⟩
abbrev S16x1 : Shape := ⟨2, ![16, 1]⟩
abbrev S16 : Shape := ⟨1, ![16]⟩
abbrev S_ : Shape := ⟨0, ![]⟩
abbrev S15 : Shape := ⟨1, ![15]⟩

abbrev nBuf : Space → Nat
  | .hbm => 59
  | .vmem => 6
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S131072x128, .f32⟩
  | .hbm, ⟨3, _⟩ => ⟨S131072x128, .f32⟩
  | .hbm, ⟨4, _⟩ => ⟨S16x1x128, .f32⟩
  | .hbm, ⟨5, _⟩ => ⟨S16x128, .f32⟩
  | .hbm, ⟨6, _⟩ => ⟨S16x1, .f32⟩
  | .hbm, ⟨7, _⟩ => ⟨S16, .f32⟩
  | .hbm, ⟨8, _⟩ => ⟨S_, .f32⟩
  | .hbm, ⟨9, _⟩ => ⟨S_, .f32⟩
  | .hbm, ⟨10, _⟩ => ⟨S16x1, .f32⟩
  | .hbm, ⟨11, _⟩ => ⟨S16, .f32⟩
  | .hbm, ⟨12, _⟩ => ⟨S_, .f32⟩
  | .hbm, ⟨13, _⟩ => ⟨S_, .f32⟩
  | .hbm, ⟨14, _⟩ => ⟨S16x1, .f32⟩
  | .hbm, ⟨15, _⟩ => ⟨S16, .f32⟩
  | .hbm, ⟨16, _⟩ => ⟨S_, .f32⟩
  | .hbm, ⟨17, _⟩ => ⟨S_, .f32⟩
  | .hbm, ⟨18, _⟩ => ⟨S16x1, .f32⟩
  | .hbm, ⟨19, _⟩ => ⟨S16, .f32⟩
  | .hbm, ⟨20, _⟩ => ⟨S_, .f32⟩
  | .hbm, ⟨21, _⟩ => ⟨S_, .f32⟩
  | .hbm, ⟨22, _⟩ => ⟨S16x1, .f32⟩
  | .hbm, ⟨23, _⟩ => ⟨S16, .f32⟩
  | .hbm, ⟨24, _⟩ => ⟨S_, .f32⟩
  | .hbm, ⟨25, _⟩ => ⟨S_, .f32⟩
  | .hbm, ⟨26, _⟩ => ⟨S16x1, .f32⟩
  | .hbm, ⟨27, _⟩ => ⟨S16, .f32⟩
  | .hbm, ⟨28, _⟩ => ⟨S16x1, .f32⟩
  | .hbm, ⟨29, _⟩ => ⟨S16, .f32⟩
  | .hbm, ⟨30, _⟩ => ⟨S15, .f32⟩
  | .hbm, ⟨31, _⟩ => ⟨S15, .f32⟩
  | .hbm, ⟨32, _⟩ => ⟨S15, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x1x128, .f32⟩
  | .local _ .vmem, ⟨5, _⟩ => ⟨S1x1x128, .f32⟩
  | _, _ => ⟨S64x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_4 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_v32 : Ref sig .tc := ⟨.hbm, 43, rfl⟩
abbrev main_cst_8 : Ref sig .tc := ⟨.hbm, 44, rfl⟩
abbrev main_v33 : Ref sig .tc := ⟨.hbm, 45, rfl⟩
abbrev main_cst_9 : Ref sig .tc := ⟨.hbm, 46, rfl⟩
abbrev main_v34 : Ref sig .tc := ⟨.hbm, 47, rfl⟩
abbrev main_cst_10 : Ref sig .tc := ⟨.hbm, 48, rfl⟩
abbrev main_v35 : Ref sig .tc := ⟨.hbm, 49, rfl⟩
abbrev main_v36 : Ref sig .tc := ⟨.hbm, 50, rfl⟩
abbrev main_cst_11 : Ref sig .tc := ⟨.hbm, 51, rfl⟩
abbrev main_v37 : Ref sig .tc := ⟨.hbm, 52, rfl⟩
abbrev main_cst_12 : Ref sig .tc := ⟨.hbm, 53, rfl⟩
abbrev main_v38 : Ref sig .tc := ⟨.hbm, 54, rfl⟩
abbrev main_v39 : Ref sig .tc := ⟨.hbm, 55, rfl⟩
abbrev main_cst_13 : Ref sig .tc := ⟨.hbm, 56, rfl⟩
abbrev main_v40 : Ref sig .tc := ⟨.hbm, 57, rfl⟩
abbrev main_v41 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x1x512x512_S131072x128 : S64x1x512x512.ShapeCasts S131072x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S8192 : S8192x128.Reduces [1] S8192
  shapeCasts_S8192_S8192x1 : S8192.ShapeCasts S8192x1
  reduces_S8192x1_S1 : S8192x1.Reduces [0] S1
  shapeCasts_S1_S1x1 : S1.ShapeCasts S1x1
  natLt_1_32 : 1 < 32
  iota_S8192x128_d0_w32 : S8192x128.Iotas .tc 32 [0]
  iota_S8192x128_d1_w32 : S8192x128.Iotas .tc 32 [1]
  rotates_S8192x128_d1 : S8192x128.Rotates 1 none
  rotates_S8192x128_d0 : S8192x128.Rotates 0 none
  slices_S8192x128_o0_127_S8192x1 : S8192x128.Slices ![0, 127] S8192x1
  shapeCasts_S8192x1_S8192x1 : S8192x1.ShapeCasts S8192x1
  broadcasts_S8192x1_S8192x128 : S8192x1.Broadcasts S8192x128
  slices_S8192x128_o0_0_S1x1 : S8192x128.Slices ![0, 0] S1x1
  slices_S8192x128_o8191_127_S1x1 : S8192x128.Slices ![8191, 127] S1x1
  concatenates_S1x1_S1x1_S1x1_S1x1_S1x1_S1x1_S1x1_S1x7_d1 : Shape.Concatenates [S1x1, S1x1, S1x1, S1x1, S1x1, S1x1, S1x1] S1x7 1
  concatenates_S1x7_S1x121_S1x128_d1 : Shape.Concatenates [S1x7, S1x121] S1x128 1
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  shapeCasts_S16x1x128_S16x128 : S16x1x128.ShapeCasts S16x128
  slices_S16x128_S16x1_0_0 : S16x128.Slices ![0, 0] S16x1
  shapeCasts_S16x1_S16 : S16x1.ShapeCasts S16
  reducesTo_S16_S_d0 : S16.ReducesTo [0] S_
  h_S_ : 0 < S_.numel
  slices_S16x128_S16x1_0_1 : S16x128.Slices ![0, 1] S16x1
  slices_S16x128_S16x1_0_2 : S16x128.Slices ![0, 2] S16x1
  slices_S16x128_S16x1_0_3 : S16x128.Slices ![0, 3] S16x1
  slices_S16x128_S16x1_0_4 : S16x128.Slices ![0, 4] S16x1
  slices_S16x128_S16x1_0_5 : S16x128.Slices ![0, 5] S16x1
  slices_S16x128_S16x1_0_6 : S16x128.Slices ![0, 6] S16x1
  slices_S16_S15_0 : S16.Slices ![0] S15
  slices_S16_S15_1 : S16.Slices ![1] S15
  reducesTo_S15_S_d0 : S15.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .f32 = 32 ∨ (Rect.block (s := S131072x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S16x1x128.size a
  hwx0_2 : ∀ i : grid0.Coords, EltTy.bits .f32 = 32 ∨ (Rect.block (s := S16x1x128) S1x1x128.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x1x512x512 : Shape := ⟨4, ![64, 1, 512, 512]⟩
abbrev S16777216 : Shape := ⟨1, ![16777216]⟩
abbrev S_ : Shape := ⟨0, ![]⟩
abbrev S1 : Shape := ⟨1, ![1]⟩
abbrev S16777215 : Shape := ⟨1, ![16777215]⟩

abbrev nBuf : Space → Nat
  | .hbm => 65
  | .vmem => 0
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S16777216, .f32⟩
  | .hbm, ⟨3, _⟩ => ⟨S16777216, .f32⟩
  | .hbm, ⟨4, _⟩ => ⟨S16777216, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S16777216, .f32⟩
  | .hbm, ⟨22, _⟩ => ⟨S_, .f32⟩
  | .hbm, ⟨23, _⟩ => ⟨S16777216, .f32⟩
  | .hbm, ⟨24, _⟩ => ⟨S16777216, .f32⟩
  | .hbm, ⟨25, _⟩ => ⟨S16777216, .f32⟩
  | .hbm, ⟨26, _⟩ => ⟨S16777216, .f32⟩
  | .hbm, ⟨27, _⟩ => ⟨S_, .f32⟩
  | .hbm, ⟨28, _⟩ => ⟨S16777216, .f32⟩
  | .hbm, ⟨29, _⟩ => ⟨S16777216, .f32⟩
  | .hbm, ⟨30, _⟩ => ⟨S16777216, .f32⟩
  | .hbm, ⟨31, _⟩ => ⟨S_, .f32⟩
  | .hbm, ⟨32, _⟩ => ⟨S16777216, .f32⟩
  | .hbm, ⟨33, _⟩ => ⟨S16777216, .f32⟩
  | .hbm, ⟨34, _⟩ => ⟨S16777216, .f32⟩
  | .hbm, ⟨35, _⟩ => ⟨S16777216, .f32⟩
  | .hbm, ⟨36, _⟩ => ⟨S16777216, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S16777216, .f32⟩
  | .hbm, ⟨43, _⟩ => ⟨S16777216, .i1⟩
  | .hbm, ⟨44, _⟩ => ⟨S1, .i1⟩
  | .hbm, ⟨45, _⟩ => ⟨S16777215, .i1⟩
  | .hbm, ⟨46, _⟩ => ⟨S16777215, .i1⟩
  | .hbm, ⟨47, _⟩ => ⟨S16777215, .i1⟩
  | .hbm, ⟨48, _⟩ => ⟨S16777215, .i1⟩
  | .hbm, ⟨49, _⟩ => ⟨S16777216, .i1⟩
  | .hbm, ⟨50, _⟩ => ⟨S16777216, .i32⟩
  | .hbm, ⟨51, _⟩ => ⟨S_, .i32⟩
  | .hbm, ⟨52, _⟩ => ⟨S_, .i32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S64x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_v8 : Ref sig .tc := ⟨.hbm, 15, rfl⟩
abbrev main_cst_4 : Ref sig .tc := ⟨.hbm, 16, rfl⟩
abbrev main_v9 : Ref sig .tc := ⟨.hbm, 17, rfl⟩
abbrev main_v10 : Ref sig .tc := ⟨.hbm, 18, rfl⟩
abbrev main_cst_5 : Ref sig .tc := ⟨.hbm, 19, rfl⟩
abbrev main_v11 : Ref sig .tc := ⟨.hbm, 20, rfl⟩
abbrev main_v12 : Ref sig .tc := ⟨.hbm, 21, rfl⟩
abbrev main_cst_6 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_cst_10 : Ref sig .tc := ⟨.hbm, 39, rfl⟩
abbrev main_v26 : Ref sig .tc := ⟨.hbm, 40, rfl⟩
abbrev main_cst_11 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c : Ref sig .tc := ⟨.hbm, 51, rfl⟩
abbrev main_v36 : Ref sig .tc := ⟨.hbm, 52, rfl⟩
abbrev main_v37 : Ref sig .tc := ⟨.hbm, 53, rfl⟩
abbrev main_cst_12 : Ref sig .tc := ⟨.hbm, 54, rfl⟩
abbrev main_v38 : Ref sig .tc := ⟨.hbm, 55, rfl⟩
abbrev main_v39 : Ref sig .tc := ⟨.hbm, 56, rfl⟩
abbrev main_cst_13 : Ref sig .tc := ⟨.hbm, 57, rfl⟩
abbrev main_v40 : Ref sig .tc := ⟨.hbm, 58, rfl⟩
abbrev main_cst_14 : Ref sig .tc := ⟨.hbm, 59, rfl⟩
abbrev main_v41 : Ref sig .tc := ⟨.hbm, 60, rfl⟩
abbrev main_v42 : Ref sig .tc := ⟨.hbm, 61, rfl⟩
abbrev main_cst_15 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]

class Facts₀ : Prop where
  shapeCasts_S64x1x512x512_S16777216 : S64x1x512x512.ShapeCasts S16777216
  reducesTo_S16777216_S_d0 : S16777216.ReducesTo [0] S_
  h_S_ : 0 < S_.numel
  bcast_S_S16777216 : S_.BroadcastsInDim S16777216 (![] : Fin 0 → Fin S16777216.rank)
  slices_S16777216_S1_0 : S16777216.Slices ![0] S1
  slices_S16777216_S16777215_1 : S16777216.Slices ![1] S16777215
  slices_S16777216_S16777215_0 : S16777216.Slices ![0] S16777215
  concatenates_S1_S16777215_S16777216_d0 : Shape.Concatenates [S1, S16777215] S16777216 0
  natLt_1_32 : 1 < 32

variable [Facts₀]

class Facts : Prop extends Facts₀ where

variable [Facts]
-- ==== Proof.Spec.lean ====
/-
  The quantities both programs compute, stated over the FLAT position of an element: the two argument arrays are
  read in row-major order as sequences of 16777216 extended reals. The kernel walks the sequence as 16 blocks of
  8192 rows of 128 lanes (block `b`, row `r`, lane `c` sit at position `(b·8192 + r)·128 + c`); the reference
  walks it whole.

  The run count. Call a position a RUN START when its entry is nonzero and either it is position 0 or the entry
  before it is zero. The reference counts run starts directly. The kernel counts, block by block, the positions
  whose entry is nonzero and whose predecessor INSIDE THE BLOCK is zero (a block's first position has none), and
  then takes off one for every block boundary both of whose sides are nonzero: exactly the positions the
  block-local count took for run starts and that are not.
-/
import Idealize.ShloMosaic.PureOps.Ideal
import Idealize.ShloMosaic.PureOps.Ideal.Laws
import Idealize.ShloMosaic.PureOps.Reduce

noncomputable section

open scoped Classical

namespace Cert.Spec

open Idealize.ShloMosaic

/-- The flat position of lane `c` of row `r` of block `b`. -/
def flat3 (b : Fin 16) (r : Fin 8192) (c : Fin 128) : Fin 16777216 :=
  ⟨(b.val * 8192 + r.val) * 128 + c.val, by have := b.isLt; have := r.isLt; have := c.isLt; omega⟩

/-- The indicator of "nonzero", as an extended real. -/
def nz (x : EReal) : EReal := if x = 0 then 0 else 1

/-- The indicator of the entry before position `i` INSIDE ITS BLOCK of 1048576 positions being nonzero; a block's
    first position has no entry before it, and reads zero. -/
def prevNz (a : Fin 16777216 → EReal) (i : Fin 16777216) : EReal :=
  if i.val % 1048576 = 0 then 0 else nz (a ⟨i.val - 1, by have := i.isLt; omega⟩)

/-- The last position of block `k` (`k` < 15), -/
def lastIdx (k : Fin 15) : Fin 16777216 := ⟨k.val * 1048576 + 1048575, by have := k.isLt; omega⟩
/-- and the first position of the block after it. -/
def firstIdx (k : Fin 15) : Fin 16777216 := ⟨(k.val + 1) * 1048576, by have := k.isLt; omega⟩

/-- The number of run starts of the sequence `a`. -/
def runStarts (a : Fin 16777216 → EReal) : ℕ :=
  (Finset.univ.filter fun i : Fin 16777216 =>
    a i ≠ 0 ∧ (i.val = 0 ∨ a ⟨i.val - 1, by have := i.isLt; omega⟩ = 0)).card

/-- The reference's one-bit mark of a run start at position `i`: the comparison "entry ≠ 0" at position 0, and
    elsewhere that bit AND the complement of the bit before. -/
def startBit (a : Fin 16777216 → EReal) (i : Fin 16777216) : BitVec 1 :=
  if i.val = 0 then Ideal.cmp .une (a i) 0
  else IntOp.andi (Ideal.cmp .une (a i) 0) (~~~ Ideal.cmp .une (a ⟨i.val - 1, by have := i.isLt; omega⟩) 0)

end Cert.Spec

end
-- ==== Proof.Flat.lean ====
/-
  Both programs read their two [64, 1, 512, 512] arguments in row-major order. Position p of that order is the entry
  at (p / 262144, 0, p / 512 mod 512, p mod 512); `seqOf x` is the argument `x` as the sequence of its 16777216
  entries. The loss both programs return is one fixed expression of five numbers: the sum of x, the sum of t, the sum
  of x·t, the sum of the clamped cross-entropy terms, and the run count.
-/
import proofs.«102038_j34668976013761_2_alg».proof.Proof.Spec
import Idealize.ShloMosaic.Lib.ValueIdx

noncomputable section

namespace Cert.Flat

open Idealize.ShloMosaic Idealize.ShloMosaic.ValueIdx

/-- Position `p` of the row-major order, as an index of the [64, 1, 512, 512] array. -/
def unflat (p : Fin 16777216) : (⟨4, ![64, 1, 512, 512]⟩ : Shape).Idx :=
  ix4 (⟨p.val / 262144, by have := p.isLt; omega⟩ : Fin 64) (⟨0, by omega⟩ : Fin 1)
    (⟨p.val / 512 % 512, by omega⟩ : Fin 512) (⟨p.val % 512, by omega⟩ : Fin 512)

/-- An argument array as the sequence of its entries in row-major order. -/
def seqOf (x : (⟨4, ![64, 1, 512, 512]⟩ : Shape).Idx → EReal) : Fin 16777216 → EReal := fun p => x (unflat p)

/-- One cross-entropy term: −(t · max(log x, −100) + (1 − t) · max(log(1 + (−x)), −100)). -/
def bce (x t : EReal) : EReal :=
  -(t * max (Ideal.log x) (Ideal.ofBits .f32 0xC2C80000#32)
    + (Ideal.ofBits .f32 0x3F800000#32 - t) * max (Ideal.log1p (-x)) (Ideal.ofBits .f32 0xC2C80000#32))

/-- The loss from the five numbers: (sb / 2^24) · 0.5 + (1 − (2 · sxt + 1) / (sx + st + 1)) + (|rc − 1| / 2^18) · 1. -/
def loss (sx st sxt sb rc : Ideal .f32) : Ideal .f32 :=
  FloatOps.addf
    (FloatOps.addf
      (FloatOps.mulf (FloatOps.hostDivf sb (FloatOps.ofBits .f32 0x4B800000#32)) (FloatOps.ofBits .f32 0x3F000000#32))
      (FloatOps.subf (FloatOps.ofBits .f32 0x3F800000#32)
        (FloatOps.hostDivf
          (FloatOps.addf (FloatOps.mulf (FloatOps.ofBits .f32 0x40000000#32) sxt) (FloatOps.ofBits .f32 0x3F800000#32))
          (FloatOps.addf (FloatOps.addf sx st) (FloatOps.ofBits .f32 0x3F800000#32)))))
    (FloatOps.mulf
      (FloatOps.hostDivf (FloatOps.hostAbsf (FloatOps.subf rc (FloatOps.ofBits .f32 0x3F800000#32)))
        (FloatOps.ofBits .f32 0x48800000#32))
      (FloatOps.ofBits .f32 0x3F800000#32))

/-- A sum over the indices of a rank-1 shape is the sum over its one coordinate. -/
theorem sum_idx1 {M : Type*} [AddCommMonoid M] {n : Nat} (f : (⟨1, ![n]⟩ : Shape).Idx → M) :
    ∑ j, f j = ∑ p : Fin n, f (ix1 p) := by
  refine (Fintype.sum_equiv (⟨fun j => j 0, fun p => ix1 p, fun j => (eq_ix1 j).symm, fun _ => rfl⟩ :
    (⟨1, ![n]⟩ : Shape).Idx ≃ Fin n) f (fun p => f (ix1 p)) fun j => ?_)
  exact congrArg f (eq_ix1 j)

end Cert.Flat

end
-- ==== Proof.KernelBlocks.lean ====
/-
  From blocks to the array. Grid point b loads rows 8192·b … 8192·b + 8191 of the two [131072, 128] arrays — the
  arguments in row-major order, so entry (r, c) of the point's block is position (b·8192 + r)·128 + c of the flat
  sequence — and stores the row (b, 0, ·) of the [16, 1, 128] statistics array. The sixteen stored rows tile that array,
  so after the region it holds, at (b, 0, l), lane l of what point b stored.
-/
import proofs.«102038_j34668976013761_2_alg».proof.Proof.Gen.KernelIdeal.Frame
import proofs.«102038_j34668976013761_2_alg».proof.Proof.Spec
import proofs.«102038_j34668976013761_2_alg».proof.Proof.Flat
import Idealize.ShloMosaic.Lib.Pipeline.Value
import Idealize.ShloMosaic.Lib.StableHlo.Run
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: point t takes block row t of each input and row t of the output. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- What a point stores is the body's one payload of the point's two input blocks. -/
theorem out_eq (x0 x1 : Vec Ideal S8192x128 .f32) :
    out0_2 (F := Ideal) x0 x1 = k0_pay1 (k0_pay4 x0) (k0_pay5 x1) (k0_pay6 x0 x1) (k0_pay7 x0 x1) (k0_pay8 x0)
      (iota .tc S8192x128 32 [0] iota_S8192x128_d0_w32) := by
  unfold out0_2
  rw [View.canon_unit_zero hz3]
  simp only [View.ld_unit_zero (S := S8192x128) hz2]

/-- The first [131072, 128] array, as the region finds it, is the first argument reshaped. -/
theorem V_v0 (c : Dev nD) : (V m c main_v0 : S131072x128.Idx → EReal)
    = shapeCast S131072x128 (m ((c : Thread nD τ).loc main_arg0)) shapeCasts_S64x1x512x512_S131072x128 := by
  show StableHlo.after hostOps0 (fun b => m (c, b)) (Proc.devRef .tc main_v0) = _
  after_results; rfl

/-- The second likewise. -/
theorem V_v1 (c : Dev nD) : (V m c main_v1 : S131072x128.Idx → EReal)
    = shapeCast S131072x128 (m ((c : Thread nD τ).loc main_arg1)) shapeCasts_S64x1x512x512_S131072x128 := by
  show StableHlo.after hostOps0 (fun b => m (c, b)) (Proc.devRef .tc main_v1) = _
  after_results; rfl

/-- Entry (R, c) of an argument reshaped to [131072, 128] is position R·128 + c of its flat sequence. -/
theorem reshaped_apply (x : S64x1x512x512.Idx → EReal) (R : Fin 131072) (cc : Fin 128) (p : Fin 16777216)
    (hp : p.val = R.val * 128 + cc.val) :
    shapeCast S131072x128 x shapeCasts_S64x1x512x512_S131072x128 (ix2 R cc) = Flat.seqOf x p := by
  refine shapeCast_apply x _ _ (Flat.unflat p) ?_
  rw [Shape.rowMajor_val_four, Shape.rowMajor_val_two]
  show ((p.val / 262144 * 1 + 0) * 512 + p.val / 512 % 512) * 512 + p.val % 512 = R.val * 128 + cc.val
  have := p.isLt
  omega

/-- Entry (r, c) of point t's block of the first argument. -/
theorem iblk0_apply (c : Dev nD) (t : Fin cfg0.N) (r : Fin 8192) (cc : Fin 128) (b : Fin 16) (hb : b.val = t.val) :
    (iblk m c 0 t : Vec Ideal S8192x128 .f32) (ix2 r cc)
      = Flat.seqOf (m ((c : Thread nD τ).loc main_arg0)) (Spec.flat3 b r cc) := by
  obtain ⟨e0, e1, -, -, -, -, -⟩ := idx_facts t
  unfold iblk
  rw [View.read_apply]
  show (V m c main_v0 : S131072x128.Idx → EReal) _ = _
  rw [V_v0]
  have hR : b.val * 8192 + r.val < 131072 := by have := b.isLt; have := r.isLt; omega
  refine (congrArg _ (?_ : _ = ix2 (⟨b.val * 8192 + r.val, hR⟩ : Fin 131072) cc)).trans
    (reshaped_apply _ _ cc (Spec.flat3 b r cc) rfl)
  funext a
  apply Fin.ext
  match a with
  | ⟨0, _⟩ => show win0_0.index t 0 * 8192 + 1 * r.val = b.val * 8192 + r.val; rw [e0, hb]; omega
  | ⟨1, _⟩ => show win0_0.index t 1 * 128 + 1 * cc.val = cc.val; rw [e1]; omega

/-- Entry (r, c) of point t's block of the second argument. -/
theorem iblk1_apply (c : Dev nD) (t : Fin cfg0.N) (r : Fin 8192) (cc : Fin 128) (b : Fin 16) (hb : b.val = t.val) :
    (iblk m c 1 t : Vec Ideal S8192x128 .f32) (ix2 r cc)
      = Flat.seqOf (m ((c : Thread nD τ).loc main_arg1)) (Spec.flat3 b r cc) := by
  obtain ⟨-, -, e0, e1, -, -, -⟩ := idx_facts t
  unfold iblk
  rw [View.read_apply]
  show (V m c main_v1 : S131072x128.Idx → EReal) _ = _
  rw [V_v1]
  have hR : b.val * 8192 + r.val < 131072 := by have := b.isLt; have := r.isLt; omega
  refine (congrArg _ (?_ : _ = ix2 (⟨b.val * 8192 + r.val, hR⟩ : Fin 131072) cc)).trans
    (reshaped_apply _ _ cc (Spec.flat3 b r cc) rfl)
  funext a
  apply Fin.ext
  match a with
  | ⟨0, _⟩ => show win0_1.index t 0 * 8192 + 1 * r.val = b.val * 8192 + r.val; rw [e0, hb]; omega
  | ⟨1, _⟩ => show win0_1.index t 1 * 128 + 1 * cc.val = cc.val; rw [e1]; omega

/-- The row of statistics point t stores. -/
def rowAt (c : Dev nD) (t : Fin cfg0.N) : S1x1x128.Idx → EReal := out0_2 (F := Ideal) (iblk m c 0 t) (iblk m c 1 t)

/-- The statistics array: entry (b, 0, l) is lane l of the row point b stores. -/
def stats (c : Dev nD) : S16x1x128.Idx → EReal := fun i =>
  rowAt m c ⟨(i 0).val, by rw [show cfg0.N = 16 from N_0]; exact (i 0).isLt⟩
    (ix3 (0 : Fin 1) (0 : Fin 1) (⟨(i 2).val, (i 2).isLt⟩ : Fin 128))

set_option maxHeartbeats 4000000 in
/-- What point t writes back is row t of the statistics array. -/
theorem flushed_eq (c : Dev nD) (t : Fin cfg0.N) (hf : (cfg0.win 2).flush t = true) :
    (dats m 0 c).flushed 2 t = ((cfg0.win 2).blk t).view.read (Elt Ideal) (stats m c) := by
  obtain ⟨-, -, -, -, e0, e1, e2⟩ := idx_facts t
  show (cfg0.win 2).cut (grid0.coords t) ((dats m 0 c).after 2 t) = _
  rw [after0_2]
  funext y
  show rowAt m c t y = stats m c (((cfg0.win 2).blk t).view.emb y)
  have h0 : ((((cfg0.win 2).blk t).view.emb y) 0).val = t.val := by
    show win0_2.index t 0 * 1 + 1 * (y 0).val = t.val
    have : (y 0).val < 1 := (y 0).isLt
    rw [e0]; omega
  have h2 : ((((cfg0.win 2).blk t).view.emb y) 2).val = (y 2).val := by
    show win0_2.index t 2 * 128 + 1 * (y 2).val = (y 2).val
    rw [e2]; omega
  have key : ∀ (a : Fin cfg0.N) (l : Fin 128), a = t → l.val = (y 2).val →
      rowAt m c a (ix3 (0 : Fin 1) (0 : Fin 1) l) = rowAt m c t y := by
    intro a l ha hl
    subst ha
    refine congrArg (rowAt m c a) ?_
    funext d
    match d with
    | ⟨0, _⟩ => exact Fin.ext (by have : (y 0).val < 1 := (y 0).isLt; show 0 = (y 0).val; omega)
    | ⟨1, _⟩ => exact Fin.ext (by have : (y 1).val < 1 := (y 1).isLt; show 0 = (y 1).val; omega)
    | ⟨2, _⟩ => exact Fin.ext hl
  exact (key _ _ (Fin.ext h0) h2).symm

/-- Every entry of the statistics array is in the row some point writes back. -/
theorem cover (c : Dev nD) (i : S16x1x128.Idx) :
    ∃ t : Fin cfg0.N, (cfg0.win 2).flush t = true ∧ i ∈ ((cfg0.win 2).blk t).view.set := by
  have hi0 : (i 0).val < 16 := (i 0).isLt
  have hi1 : (i 1).val < 1 := (i 1).isLt
  have hi2 : (i 2).val < 128 := (i 2).isLt
  have hN : cfg0.N = 16 := N_0
  have hlt : (i 0).val < cfg0.N := by rw [hN]; exact hi0
  obtain ⟨-, -, -, -, e0', e1, e2⟩ := idx_facts ⟨(i 0).val, hlt⟩
  have e0 : win0_2.index (⟨(i 0).val, hlt⟩ : Fin cfg0.N) 0 = (i 0).val := e0'
  refine ⟨⟨(i 0).val, hlt⟩, flush0_2 _, ?_⟩
  show i ∈ ((View.whole main_v2).slice (win0_2.rect (⟨(i 0).val, hlt⟩ : Fin cfg0.N))).set
  rw [View.set_slice_whole, Rect.mem_set_unit]
  intro a
  match a with
  | ⟨0, _⟩ =>
    show win0_2.index (⟨(i 0).val, hlt⟩ : Fin cfg0.N) 0 * 1 ≤ (i 0).val
      ∧ (i 0).val < win0_2.index (⟨(i 0).val, hlt⟩ : Fin cfg0.N) 0 * 1 + 1
    rw [e0]; omega
  | ⟨1, _⟩ =>
    show win0_2.index (⟨(i 0).val, hlt⟩ : Fin cfg0.N) 1 * 1 ≤ (i 1).val
      ∧ (i 1).val < win0_2.index (⟨(i 0).val, hlt⟩ : Fin cfg0.N) 1 * 1 + 1
    rw [e1]; omega
  | ⟨2, _⟩ =>
    show win0_2.index (⟨(i 0).val, hlt⟩ : Fin cfg0.N) 2 * 128 ≤ (i 2).val
      ∧ (i 2).val < win0_2.index (⟨(i 0).val, hlt⟩ : Fin cfg0.N) 2 * 128 + 128
    rw [e2]; omega

/-- After the region the statistics array holds `stats`. -/
theorem final (c : Dev nD) : (dats m 0 c).arrAt 2 cfg0.N = stats m c :=
  (dats m 0 c).arrAt_eq_of_cover 2 (stats m c) (flushed_eq m c) (cover c)

end Cert.KernelIdeal.Hand

end
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.Consts.lean ====
/-
  The one float pattern both programs spell whose value the proof uses: 0x3F800000 denotes the real number 1.
  (The zero pattern's value is the library's `Ideal.ofBits_zero_f32`. Every other pattern appears identically on both
  sides and is never evaluated.)
-/
import Idealize.ShloMosaic.PureOps.Ideal

noncomputable section

namespace Cert.Consts

open Idealize.ShloMosaic

/-- Sign 0, exponent field 127, fraction 0: the value is 2^0 · (1 + 0) = 1. -/
theorem ofBits_one : Ideal.ofBits .f32 0x3F800000#32 = 1 := by
  simp [Ideal.ofBits, Ideal.ieee, -EReal.coe_mul]; norm_num

end Cert.Consts

end
-- ==== Proof.KernelBody.lean ====
/-
  One block of the kernel, read entry by entry. A grid point loads a block of 8192 rows of 128 lanes of each
  argument and stores one row of 128 numbers, of which the first seven matter: the block's sums of x, of t, of x·t
  and of the clamped cross-entropy terms; its LOCAL run count — the number of positions whose entry is nonzero and
  whose predecessor inside the block, in row-major order, is zero (the block's first position has none); and the
  nonzero indicators of its first and of its last entry.

  The predecessor's indicator is assembled from two rotations of the nonzero mask: one step along the lanes gives
  (r, c−1) at every lane c > 0; one step down the rows, read at lane 127, gives (r−1, 127), which is the predecessor
  of (r, 0) for r > 0; and position (0, 0) is given zero.
-/
import proofs.«102038_j34668976013761_2_alg».proof.Proof.Gen.KernelIdeal.Skeleton
import proofs.«102038_j34668976013761_2_alg».proof.Proof.LibColumnLayout
import proofs.«102038_j34668976013761_2_alg».proof.Proof.Spec
import proofs.«102038_j34668976013761_2_alg».proof.Proof.Consts
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.KernelIdeal.Body

open Cert.KernelIdeal Cert.KernelIdeal.Gen Idealize.ShloMosaic Idealize.ShloMosaic.ValueIdx Cert.ColumnLayout

/-! ## The pieces -/

/-- Summing a block along its lanes and then down its rows is the double sum over rows and lanes. -/
theorem sumAll_apply (v : FVec Ideal S8192x128 .f32) (h1 : S8192x128.Reduces [1] S8192) (hc1 : S8192.ShapeCasts S8192x1)
    (h2 : S8192x1.Reduces [0] S1) (hc2 : S1.ShapeCasts S1x1) :
    shapeCast S1x1 (multiReduction .add [0] S1 (shapeCast S8192x1 (multiReduction .add [1] S8192 v 0x00000000#32 h1 (.inl rfl) rfl) hc1)
      0x00000000#32 h2 (.inl rfl) rfl) hc2 (ix2 (0 : Fin 1) (0 : Fin 1))
      = ∑ r : Fin 8192, ∑ c : Fin 128, v (ix2 r c) := by
  refine (shapeCast_a_a1_apply _ hc2 (0 : Fin 1) (0 : Fin 1)).trans ?_
  refine (Ideal.multiReduction_add_single _ _ h2 _ _ (ix1 (0 : Fin 1))).trans ?_
  refine Finset.sum_congr rfl fun (r : Fin 8192) _ => ?_
  have e : h2.lift (ix1 (0 : Fin 1)) r = ix2 r (0 : Fin 1) := by
    funext a; match a with | ⟨0, _⟩ => rfl | ⟨1, _⟩ => rfl
  refine (congrArg _ e).trans ?_
  refine (shapeCast_a_a1_apply _ hc1 r (0 : Fin 1)).trans ?_
  refine (Ideal.multiReduction_add_single _ _ h1 _ _ (ix1 r)).trans ?_
  refine Finset.sum_congr rfl fun (c : Fin 128) _ => ?_
  refine congrArg v ?_
  funext a; match a with | ⟨0, _⟩ => rfl | ⟨1, _⟩ => rfl

/-- The first seven lanes of the stored row are the seven one-entry pieces, in order. -/
theorem lanes_apply (p0 p1 p2 p3 p4 p5 p6 : FVec Ideal S1x1 .f32) (z : FVec Ideal S1x121 .f32)
    (h7 : Shape.Concatenates [S1x1, S1x1, S1x1, S1x1, S1x1, S1x1, S1x1] S1x7 1)
    (h128 : Shape.Concatenates [S1x7, S1x121] S1x128 1) (hc : S1x128.ShapeCasts S1x1x128) (k : Fin 7) :
    shapeCast S1x1x128 (concatenate S1x128 1 [⟨S1x7, concatenate S1x7 1
        [⟨S1x1, p0⟩, ⟨S1x1, p1⟩, ⟨S1x1, p2⟩, ⟨S1x1, p3⟩, ⟨S1x1, p4⟩, ⟨S1x1, p5⟩, ⟨S1x1, p6⟩] h7⟩, ⟨S1x121, z⟩] h128) hc
      (ix3 (0 : Fin 1) (0 : Fin 1) (⟨k.val, by have := k.isLt; omega⟩ : Fin 128))
      = (![p0, p1, p2, p3, p4, p5, p6] k) (ix2 (0 : Fin 1) (0 : Fin 1)) := by
  refine (shapeCast_ab_1ab_apply _ hc (0 : Fin 1) (0 : Fin 1) _).trans ?_
  refine (concatenate_pair_apply_left (t := S1x128) (s₁ := S1x7) (s₂ := S1x121) (1 : Fin 2) _ _ h128 _ rfl
    (ix2 (0 : Fin 1) (⟨k.val, k.isLt⟩ : Fin 7)) (fun b => by match b with | ⟨0, _⟩ => rfl | ⟨1, _⟩ => rfl)).trans ?_
  fin_cases k
  · exact concatenate_apply_piece (t := S1x7) (1 : Fin 2) [⟨S1x1, p0⟩, ⟨S1x1, p1⟩, ⟨S1x1, p2⟩, ⟨S1x1, p3⟩, ⟨S1x1, p4⟩, ⟨S1x1, p5⟩, ⟨S1x1, p6⟩] h7 _ 0 (by simp) S1x1 p0 rfl rfl 0 rfl (ix2 (0 : Fin 1) (0 : Fin 1))
      (fun b hb => by match b with | ⟨0, _⟩ => rfl | ⟨1, _⟩ => exact absurd rfl hb) rfl
  · exact concatenate_apply_piece (t := S1x7) (1 : Fin 2) [⟨S1x1, p0⟩, ⟨S1x1, p1⟩, ⟨S1x1, p2⟩, ⟨S1x1, p3⟩, ⟨S1x1, p4⟩, ⟨S1x1, p5⟩, ⟨S1x1, p6⟩] h7 _ 1 (by simp) S1x1 p1 rfl rfl 1 rfl (ix2 (0 : Fin 1) (0 : Fin 1))
      (fun b hb => by match b with | ⟨0, _⟩ => rfl | ⟨1, _⟩ => exact absurd rfl hb) rfl
  · exact concatenate_apply_piece (t := S1x7) (1 : Fin 2) [⟨S1x1, p0⟩, ⟨S1x1, p1⟩, ⟨S1x1, p2⟩, ⟨S1x1, p3⟩, ⟨S1x1, p4⟩, ⟨S1x1, p5⟩, ⟨S1x1, p6⟩] h7 _ 2 (by simp) S1x1 p2 rfl rfl 2 rfl (ix2 (0 : Fin 1) (0 : Fin 1))
      (fun b hb => by match b with | ⟨0, _⟩ => rfl | ⟨1, _⟩ => exact absurd rfl hb) rfl
  · exact concatenate_apply_piece (t := S1x7) (1 : Fin 2) [⟨S1x1, p0⟩, ⟨S1x1, p1⟩, ⟨S1x1, p2⟩, ⟨S1x1, p3⟩, ⟨S1x1, p4⟩, ⟨S1x1, p5⟩, ⟨S1x1, p6⟩] h7 _ 3 (by simp) S1x1 p3 rfl rfl 3 rfl (ix2 (0 : Fin 1) (0 : Fin 1))
      (fun b hb => by match b with | ⟨0, _⟩ => rfl | ⟨1, _⟩ => exact absurd rfl hb) rfl
  · exact concatenate_apply_piece (t := S1x7) (1 : Fin 2) [⟨S1x1, p0⟩, ⟨S1x1, p1⟩, ⟨S1x1, p2⟩, ⟨S1x1, p3⟩, ⟨S1x1, p4⟩, ⟨S1x1, p5⟩, ⟨S1x1, p6⟩] h7 _ 4 (by simp) S1x1 p4 rfl rfl 4 rfl (ix2 (0 : Fin 1) (0 : Fin 1))
      (fun b hb => by match b with | ⟨0, _⟩ => rfl | ⟨1, _⟩ => exact absurd rfl hb) rfl
  · exact concatenate_apply_piece (t := S1x7) (1 : Fin 2) [⟨S1x1, p0⟩, ⟨S1x1, p1⟩, ⟨S1x1, p2⟩, ⟨S1x1, p3⟩, ⟨S1x1, p4⟩, ⟨S1x1, p5⟩, ⟨S1x1, p6⟩] h7 _ 5 (by simp) S1x1 p5 rfl rfl 5 rfl (ix2 (0 : Fin 1) (0 : Fin 1))
      (fun b hb => by match b with | ⟨0, _⟩ => rfl | ⟨1, _⟩ => exact absurd rfl hb) rfl
  · exact concatenate_apply_piece (t := S1x7) (1 : Fin 2) [⟨S1x1, p0⟩, ⟨S1x1, p1⟩, ⟨S1x1, p2⟩, ⟨S1x1, p3⟩, ⟨S1x1, p4⟩, ⟨S1x1, p5⟩, ⟨S1x1, p6⟩] h7 _ 6 (by simp) S1x1 p6 rfl rfl 6 rfl (ix2 (0 : Fin 1) (0 : Fin 1))
      (fun b hb => by match b with | ⟨0, _⟩ => rfl | ⟨1, _⟩ => exact absurd rfl hb) rfl

/-- The same, lane by lane. -/
theorem lanes_at (p0 p1 p2 p3 p4 p5 p6 : FVec Ideal S1x1 .f32) (z : FVec Ideal S1x121 .f32)
    (h7 : Shape.Concatenates [S1x1, S1x1, S1x1, S1x1, S1x1, S1x1, S1x1] S1x7 1)
    (h128 : Shape.Concatenates [S1x7, S1x121] S1x128 1) (hc : S1x128.ShapeCasts S1x1x128) :
    let B := shapeCast S1x1x128 (concatenate S1x128 1 [⟨S1x7, concatenate S1x7 1
        [⟨S1x1, p0⟩, ⟨S1x1, p1⟩, ⟨S1x1, p2⟩, ⟨S1x1, p3⟩, ⟨S1x1, p4⟩, ⟨S1x1, p5⟩, ⟨S1x1, p6⟩] h7⟩, ⟨S1x121, z⟩] h128) hc
    B (ix3 (0 : Fin 1) (0 : Fin 1) (⟨0, by omega⟩ : Fin 128)) = p0 (ix2 (0 : Fin 1) (0 : Fin 1))
    ∧ B (ix3 (0 : Fin 1) (0 : Fin 1) (⟨1, by omega⟩ : Fin 128)) = p1 (ix2 (0 : Fin 1) (0 : Fin 1))
    ∧ B (ix3 (0 : Fin 1) (0 : Fin 1) (⟨2, by omega⟩ : Fin 128)) = p2 (ix2 (0 : Fin 1) (0 : Fin 1))
    ∧ B (ix3 (0 : Fin 1) (0 : Fin 1) (⟨3, by omega⟩ : Fin 128)) = p3 (ix2 (0 : Fin 1) (0 : Fin 1))
    ∧ B (ix3 (0 : Fin 1) (0 : Fin 1) (⟨4, by omega⟩ : Fin 128)) = p4 (ix2 (0 : Fin 1) (0 : Fin 1))
    ∧ B (ix3 (0 : Fin 1) (0 : Fin 1) (⟨5, by omega⟩ : Fin 128)) = p5 (ix2 (0 : Fin 1) (0 : Fin 1))
    ∧ B (ix3 (0 : Fin 1) (0 : Fin 1) (⟨6, by omega⟩ : Fin 128)) = p6 (ix2 (0 : Fin 1) (0 : Fin 1)) :=
  ⟨lanes_apply p0 p1 p2 p3 p4 p5 p6 z h7 h128 hc (0 : Fin 7), lanes_apply p0 p1 p2 p3 p4 p5 p6 z h7 h128 hc (1 : Fin 7),
    lanes_apply p0 p1 p2 p3 p4 p5 p6 z h7 h128 hc (2 : Fin 7), lanes_apply p0 p1 p2 p3 p4 p5 p6 z h7 h128 hc (3 : Fin 7),
    lanes_apply p0 p1 p2 p3 p4 p5 p6 z h7 h128 hc (4 : Fin 7), lanes_apply p0 p1 p2 p3 p4 p5 p6 z h7 h128 hc (5 : Fin 7),
    lanes_apply p0 p1 p2 p3 p4 p5 p6 z h7 h128 hc (6 : Fin 7)⟩

/-- The comparison "x ≠ 0", widened to 32 bits and converted, is the indicator of "nonzero". -/
theorem mask_word (x : EReal) :
    FloatOps.sitofp (F := Ideal) .f32 ((FloatOps.cmpf (F := Ideal) (φ := .f32) .one x (Scalar.ofBits .f32 0x00000000#32)).setWidth 32)
      = Spec.nz x := by
  show ((((Ideal.cmp .one x (Ideal.ofBits .f32 0x00000000#32)).setWidth 32).toInt : ℝ) : EReal) = Spec.nz x
  rw [Ideal.ofBits_zero_f32, toInt_setWidth_bit]
  unfold Ideal.cmp Spec.nz
  by_cases h : x = 0
  · simp [h]
  · simp [h]

/-- A 32-bit word made from a number below 2^32 is the zero word exactly when the number is zero. -/
theorem cmpi_eq_zero (n : ℕ) (hn : n < 4294967296) :
    IntOp.cmpi .eq (BitVec.ofNat 32 n) 0#32 = if n = 0 then 1#1 else 0#1 := by
  unfold IntOp.cmpi
  by_cases h : n = 0
  · subst h; rfl
  · rw [if_neg h]
    have hne : (BitVec.ofNat 32 n == 0#32) = false := by
      rw [beq_eq_false_iff_ne]
      intro e
      have := congrArg BitVec.toNat e
      simp only [BitVec.toNat_ofNat, BitVec.toNat_zero] at this
      omega
    simp only [hne]
    rfl

end Cert.KernelIdeal.Body

end
-- ==== Proof.KernelShift.lean ====
/-
  The predecessor's indicator. The kernel rotates the nonzero mask one step along the lanes, which puts (r, c−1) at
  (r, c) for c > 0; rotates it one step down the rows and takes lane 127, which puts (r−1, 127) at row r for r > 0;
  uses the second at lane 0 and the first elsewhere; and writes zero at (0, 0). The result is the mask at the position
  before (r, c) in the block's row-major order, zero where there is none.
-/
import proofs.«102038_j34668976013761_2_alg».proof.Proof.KernelBody
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.KernelIdeal.Body

open Cert.KernelIdeal Cert.KernelIdeal.Gen Idealize.ShloMosaic Idealize.ShloMosaic.ValueIdx Cert.ColumnLayout

/-! ## The predecessor's indicator -/

/-- The value of the block-shaped vector `w` at the position before (r, c) in row-major order — (r, c−1) when c > 0,
    (r−1, 127) when c = 0 < r — and zero at (0, 0), which has no position before it. -/
def prevIn (w : S8192x128.Idx → EReal) (r : Fin 8192) (c : Fin 128) : EReal :=
  if r.val = 0 ∧ c.val = 0 then 0
  else if c.val = 0 then w (ix2 (⟨r.val - 1, by have := r.isLt; omega⟩ : Fin 8192) (⟨127, by omega⟩ : Fin 128))
  else w (ix2 r (⟨c.val - 1, by have := c.isLt; omega⟩ : Fin 128))

/-- The two selects, on bits that say "r = 0" and "c = 0": zero when both hold, the first value when only "c = 0" does,
    the second otherwise. -/
theorem sel3 (r c : ℕ) (A B Z : EReal) :
    Scalar.select (IntOp.andi (if r = 0 then 1#1 else 0#1) (if c = 0 then 1#1 else 0#1)) Z
      (Scalar.select (if c = 0 then 1#1 else 0#1) A B)
      = if r = 0 ∧ c = 0 then Z else if c = 0 then A else B := by
  by_cases hr : r = 0 <;> by_cases hc : c = 0 <;> simp [hr, hc, Scalar.select, IntOp.andi]

/-- The two rotations, the lane-127 column of the second spread over the lanes, and the two selects on "lane 0" and on
    "row 0 and lane 0" read, at (r, c), the vector at the position before (r, c), zero at (0, 0). -/
theorem shifted_apply (w : FVec Ideal S8192x128 .f32) (hi0 : S8192x128.Iotas .tc 32 [0]) (hi1 : S8192x128.Iotas .tc 32 [1])
    (hr1 : S8192x128.Rotates 1 none) (hr0 : S8192x128.Rotates 0 none) (hs : S8192x128.Slices ![0, 127] S8192x1)
    (hcs : S8192x1.ShapeCasts S8192x1) (hb : S8192x1.Broadcasts S8192x128) (r : Fin 8192) (c : Fin 128) :
    select (andi (cmpi .eq (iota .tc S8192x128 32 [0] hi0) (broadcast S8192x128 0#32))
        (cmpi .eq (iota .tc S8192x128 32 [1] hi1) (broadcast S8192x128 0#32)))
      (broadcast S8192x128 (Scalar.ofBits (F := Ideal) .f32 0x00000000#32))
      (select (cmpi .eq (iota .tc S8192x128 32 [1] hi1) (broadcast S8192x128 0#32))
        (broadcastTo S8192x128 (shapeCast S8192x1 (extractStridedSlice S8192x1 ![0, 127] (dynamicRotate 0 1#32 none w hr0) hs) hcs) hb)
        (dynamicRotate 1 1#32 none w hr1)) (ix2 r c) = prevIn w r c := by
  have hrl := r.isLt
  have hcl := c.isLt
  have e0 : iota .tc S8192x128 32 [0] hi0 (ix2 r c) = BitVec.ofNat 32 r.val := iota_single_apply _ _ _ _ _ _
  have e1 : iota .tc S8192x128 32 [1] hi1 (ix2 r c) = BitVec.ofNat 32 c.val := iota_single_apply _ _ _ _ _ _
  have eL : dynamicRotate 1 1#32 none w hr1 (ix2 r c)
      = w (ix2 r (⟨(c.val + 127) % 128, Nat.mod_lt _ (by omega)⟩ : Fin 128)) :=
    dynamicRotate_apply 1 1#32 w hr1 _ _ (fun b => by
      match b with
      | ⟨0, _⟩ => rfl
      | ⟨1, _⟩ => show (c.val + 127) % 128 = (c.val + 128 - 1 % 128) % 128; omega)
  have eS : broadcastTo S8192x128 (shapeCast S8192x1 (extractStridedSlice S8192x1 ![0, 127] (dynamicRotate 0 1#32 none w hr0) hs) hcs) hb (ix2 r c)
      = w (ix2 (⟨(r.val + 8191) % 8192, Nat.mod_lt _ (by omega)⟩ : Fin 8192) (⟨127, by omega⟩ : Fin 128)) := by
    refine (broadcastTo_a1_ab_apply _ hb r c).trans ?_
    refine (congrFun (shapeCast_self _ hcs) _).trans ?_
    refine (slice2_axis1_apply 127 _ hs r (0 : Fin 1) (⟨127, by omega⟩ : Fin 128) rfl).trans ?_
    exact dynamicRotate_apply 0 1#32 w hr0 _ _ (fun b => by
      match b with
      | ⟨0, _⟩ => show (r.val + 8191) % 8192 = (r.val + 8192 - 1 % 8192) % 8192; omega
      | ⟨1, _⟩ => rfl)
  show Scalar.select (IntOp.andi (IntOp.cmpi .eq (iota .tc S8192x128 32 [0] hi0 (ix2 r c)) 0#32)
        (IntOp.cmpi .eq (iota .tc S8192x128 32 [1] hi1 (ix2 r c)) 0#32))
      (Ideal.ofBits .f32 0x00000000#32)
      (Scalar.select (IntOp.cmpi .eq (iota .tc S8192x128 32 [1] hi1 (ix2 r c)) 0#32)
        (broadcastTo S8192x128 (shapeCast S8192x1 (extractStridedSlice S8192x1 ![0, 127] (dynamicRotate 0 1#32 none w hr0) hs) hcs) hb (ix2 r c))
        (dynamicRotate 1 1#32 none w hr1 (ix2 r c))) = prevIn w r c
  rw [e0, e1, eL, eS, cmpi_eq_zero _ (by omega), cmpi_eq_zero _ (by omega), Ideal.ofBits_zero_f32, sel3]
  unfold prevIn
  by_cases h1 : r.val = 0 ∧ c.val = 0
  · rw [if_pos h1, if_pos h1]
  · rw [if_neg h1, if_neg h1]
    by_cases hc : c.val = 0
    · rw [if_pos hc, if_pos hc]
      refine congrArg w ?_
      funext a; match a with
      | ⟨0, _⟩ => exact Fin.ext (by show (r.val + 8191) % 8192 = r.val - 1; omega)
      | ⟨1, _⟩ => rfl
    · rw [if_neg hc, if_neg hc]
      refine congrArg w ?_
      funext a; match a with
      | ⟨0, _⟩ => rfl
      | ⟨1, _⟩ => exact Fin.ext (by show (c.val + 127) % 128 = c.val - 1; omega)

end Cert.KernelIdeal.Body

end
-- ==== Proof.KernelLanes.lean ====
/-
  The seven numbers a grid point stores, each as a function of the point's two input blocks.
-/
import proofs.«102038_j34668976013761_2_alg».proof.Proof.KernelBody
import proofs.«102038_j34668976013761_2_alg».proof.Proof.KernelShift
import proofs.«102038_j34668976013761_2_alg».proof.Proof.Flat
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.KernelIdeal.Body

open Cert.KernelIdeal Cert.KernelIdeal.Gen Idealize.ShloMosaic Idealize.ShloMosaic.ValueIdx Cert.ColumnLayout

/-! ## The payloads at an entry -/

/-- The nonzero mask of the first argument's block. -/
theorem mask_apply (x0 : Vec Ideal S8192x128 .f32) (j : S8192x128.Idx) : k0_pay8 (F := Ideal) x0 j = Spec.nz (x0 j) := by
  unfold k0_pay8 k0_pay2
  show FloatOps.sitofp (F := Ideal) .f32 ((FloatOps.cmpf (F := Ideal) (φ := .f32) .one
    (shapeCast S8192x128 x0 shapeCasts_S8192x128_S8192x128 j) (Scalar.ofBits .f32 0x00000000#32)).setWidth 32) = _
  rw [shapeCast_self]
  exact mask_word _

/-- The one-entry slice at offset (0, 0) is the block's first entry. -/
theorem first_entry (w : FVec Ideal S8192x128 .f32) (h : S8192x128.Slices ![0, 0] S1x1) :
    extractStridedSlice S1x1 ![0, 0] w h (ix2 (0 : Fin 1) (0 : Fin 1))
      = w (ix2 (⟨0, by omega⟩ : Fin 8192) (⟨0, by omega⟩ : Fin 128)) :=
  extractStridedSlice_apply ![0, 0] w h (ix2 (0 : Fin 1) (0 : Fin 1)) (ix2 (⟨0, by omega⟩ : Fin 8192) (⟨0, by omega⟩ : Fin 128))
    (fun a => by match a with | ⟨0, _⟩ => exact (Nat.add_zero _).symm | ⟨1, _⟩ => exact (Nat.add_zero _).symm)

/-- The one-entry slice at offset (8191, 127) is the block's last entry. -/
theorem last_entry (w : FVec Ideal S8192x128 .f32) (h : S8192x128.Slices ![8191, 127] S1x1) :
    extractStridedSlice S1x1 ![8191, 127] w h (ix2 (0 : Fin 1) (0 : Fin 1))
      = w (ix2 (⟨8191, by omega⟩ : Fin 8192) (⟨127, by omega⟩ : Fin 128)) :=
  extractStridedSlice_apply ![8191, 127] w h (ix2 (0 : Fin 1) (0 : Fin 1)) (ix2 (⟨8191, by omega⟩ : Fin 8192) (⟨127, by omega⟩ : Fin 128))
    (fun a => by match a with | ⟨0, _⟩ => exact (Nat.add_zero _).symm | ⟨1, _⟩ => exact (Nat.add_zero _).symm)

variable (x0 x1 : Vec Ideal S8192x128 .f32) (v40 : IVec S8192x128 32)

/-- Lane 0: the block's sum of x. -/
theorem lane0 : k0_pay1 (F := Ideal) (k0_pay4 x0) (k0_pay5 x1) (k0_pay6 x0 x1) (k0_pay7 x0 x1) (k0_pay8 x0) v40
      (ix3 (0 : Fin 1) (0 : Fin 1) (⟨0, by omega⟩ : Fin 128)) = ∑ r : Fin 8192, ∑ c : Fin 128, x0 (ix2 r c) := by
  unfold k0_pay1
  refine (lanes_at _ _ _ _ _ _ _ _ _ _ _).1.trans ?_
  unfold k0_pay4 k0_pay2
  refine (sumAll_apply _ _ _ _ _).trans ?_
  refine Finset.sum_congr rfl fun r _ => Finset.sum_congr rfl fun c _ => ?_
  exact congrFun (shapeCast_self _ _) _

/-- Lane 1: the block's sum of t. -/
theorem lane1 : k0_pay1 (F := Ideal) (k0_pay4 x0) (k0_pay5 x1) (k0_pay6 x0 x1) (k0_pay7 x0 x1) (k0_pay8 x0) v40
      (ix3 (0 : Fin 1) (0 : Fin 1) (⟨1, by omega⟩ : Fin 128)) = ∑ r : Fin 8192, ∑ c : Fin 128, x1 (ix2 r c) := by
  unfold k0_pay1
  refine (lanes_at _ _ _ _ _ _ _ _ _ _ _).2.1.trans ?_
  unfold k0_pay5 k0_pay3
  refine (sumAll_apply _ _ _ _ _).trans ?_
  refine Finset.sum_congr rfl fun r _ => Finset.sum_congr rfl fun c _ => ?_
  exact congrFun (shapeCast_self _ _) _

/-- Lane 2: the block's sum of x·t. -/
theorem lane2 : k0_pay1 (F := Ideal) (k0_pay4 x0) (k0_pay5 x1) (k0_pay6 x0 x1) (k0_pay7 x0 x1) (k0_pay8 x0) v40
      (ix3 (0 : Fin 1) (0 : Fin 1) (⟨2, by omega⟩ : Fin 128))
      = ∑ r : Fin 8192, ∑ c : Fin 128, x0 (ix2 r c) * x1 (ix2 r c) := by
  unfold k0_pay1
  refine (lanes_at _ _ _ _ _ _ _ _ _ _ _).2.2.1.trans ?_
  unfold k0_pay6 k0_pay2 k0_pay3
  refine (sumAll_apply _ _ _ _ _).trans ?_
  refine Finset.sum_congr rfl fun r _ => Finset.sum_congr rfl fun c _ => ?_
  show shapeCast S8192x128 x0 _ (ix2 r c) * shapeCast S8192x128 x1 _ (ix2 r c) = _
  rw [shapeCast_self, shapeCast_self]

/-- Lane 3: the block's sum of the cross-entropy terms. -/
theorem lane3 : k0_pay1 (F := Ideal) (k0_pay4 x0) (k0_pay5 x1) (k0_pay6 x0 x1) (k0_pay7 x0 x1) (k0_pay8 x0) v40
      (ix3 (0 : Fin 1) (0 : Fin 1) (⟨3, by omega⟩ : Fin 128))
      = ∑ r : Fin 8192, ∑ c : Fin 128, Flat.bce (x0 (ix2 r c)) (x1 (ix2 r c)) := by
  unfold k0_pay1
  refine (lanes_at _ _ _ _ _ _ _ _ _ _ _).2.2.2.1.trans ?_
  unfold k0_pay7 k0_pay2 k0_pay3
  refine (sumAll_apply _ _ _ _ _).trans ?_
  refine Finset.sum_congr rfl fun r _ => Finset.sum_congr rfl fun c _ => ?_
  rw [shapeCast_self, shapeCast_self]
  show Ideal.ofBits .f32 0x00000000#32 - (x1 (ix2 r c) * max (Ideal.log (x0 (ix2 r c))) (Ideal.ofBits .f32 0xC2C80000#32)
    + (Ideal.ofBits .f32 0x3F800000#32 - x1 (ix2 r c))
      * max (Ideal.log1p (Ideal.ofBits .f32 0x00000000#32 - x0 (ix2 r c))) (Ideal.ofBits .f32 0xC2C80000#32)) = _
  rw [Ideal.ofBits_zero_f32, zero_sub, zero_sub]
  rfl

/-- Lane 4: the block's local run count. -/
theorem lane4 (hi0 : S8192x128.Iotas .tc 32 [0]) :
    k0_pay1 (F := Ideal) (k0_pay4 x0) (k0_pay5 x1) (k0_pay6 x0 x1) (k0_pay7 x0 x1) (k0_pay8 x0)
      (iota .tc S8192x128 32 [0] hi0) (ix3 (0 : Fin 1) (0 : Fin 1) (⟨4, by omega⟩ : Fin 128))
      = ∑ r : Fin 8192, ∑ c : Fin 128, Spec.nz (x0 (ix2 r c)) * (1 - prevIn (fun j => Spec.nz (x0 j)) r c) := by
  have hm : k0_pay8 (F := Ideal) x0 = fun j => Spec.nz (x0 j) := funext fun j => mask_apply x0 j
  unfold k0_pay1
  refine (lanes_at _ _ _ _ _ _ _ _ _ _ _).2.2.2.2.1.trans ?_
  refine (sumAll_apply _ _ _ _ _).trans ?_
  refine Finset.sum_congr rfl fun r _ => Finset.sum_congr rfl fun c _ => ?_
  refine (congrArg₂ (fun a b : EReal => a * (Ideal.ofBits .f32 0x3F800000#32 - b)) (mask_apply x0 (ix2 r c))
    (shifted_apply (k0_pay8 (F := Ideal) x0) _ _ _ _ _ _ _ r c)).trans ?_
  rw [Consts.ofBits_one, hm]

/-- Lane 5: the indicator of the block's first entry. -/
theorem lane5 : k0_pay1 (F := Ideal) (k0_pay4 x0) (k0_pay5 x1) (k0_pay6 x0 x1) (k0_pay7 x0 x1) (k0_pay8 x0) v40
      (ix3 (0 : Fin 1) (0 : Fin 1) (⟨5, by omega⟩ : Fin 128))
      = Spec.nz (x0 (ix2 (⟨0, by omega⟩ : Fin 8192) (⟨0, by omega⟩ : Fin 128))) := by
  unfold k0_pay1
  refine (lanes_at _ _ _ _ _ _ _ _ _ _ _).2.2.2.2.2.1.trans ?_
  exact (first_entry _ _).trans (mask_apply x0 _)

/-- Lane 6: the indicator of the block's last entry. -/
theorem lane6 : k0_pay1 (F := Ideal) (k0_pay4 x0) (k0_pay5 x1) (k0_pay6 x0 x1) (k0_pay7 x0 x1) (k0_pay8 x0) v40
      (ix3 (0 : Fin 1) (0 : Fin 1) (⟨6, by omega⟩ : Fin 128))
      = Spec.nz (x0 (ix2 (⟨8191, by omega⟩ : Fin 8192) (⟨127, by omega⟩ : Fin 128))) := by
  unfold k0_pay1
  refine (lanes_at _ _ _ _ _ _ _ _ _ _ _).2.2.2.2.2.2.trans ?_
  exact (last_entry _ _).trans (mask_apply x0 _)

end Cert.KernelIdeal.Body

end
-- ==== Proof.KernelStats.lean ====
/-
  The statistics array in terms of the flat sequences. Row b of the array holds the seven numbers of block b of the
  flat sequences: entry (r, c) of the block is position (b·8192 + r)·128 + c. Inside a block the position before
  (r, c) in row-major order is the flat position before it, and (0, 0) is the block's first position, so the block's
  predecessor indicator is the flat sequence's.
-/
import proofs.«102038_j34668976013761_2_alg».proof.Proof.KernelBlocks
import proofs.«102038_j34668976013761_2_alg».proof.Proof.KernelLanes
import proofs.«102038_j34668976013761_2_alg».proof.Proof.Flat
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL.Sem
open Cert.Spec Cert.Flat

/-- Inside block b the indicator of the position before (r, c) is the flat sequence's indicator of the position before
    (b·8192 + r)·128 + c within its block of 1048576. -/
theorem block_prev (x0 : S8192x128.Idx → EReal) (a : Fin 16777216 → EReal) (b : Fin 16)
    (hx : ∀ (r : Fin 8192) (c : Fin 128), x0 (ix2 r c) = a (flat3 b r c)) (r : Fin 8192) (c : Fin 128) :
    Body.prevIn (fun j => nz (x0 j)) r c = prevNz a (flat3 b r c) := by
  have hb := b.isLt
  have hr := r.isLt
  have hc := c.isLt
  unfold Body.prevIn prevNz
  by_cases h0 : r.val = 0 ∧ c.val = 0
  · have hp : (flat3 b r c).val % 1048576 = 0 := by
      show ((b.val * 8192 + r.val) * 128 + c.val) % 1048576 = 0; omega
    rw [if_pos h0, if_pos hp]
  · have hp : ¬ (flat3 b r c).val % 1048576 = 0 := by
      show ¬ ((b.val * 8192 + r.val) * 128 + c.val) % 1048576 = 0; omega
    rw [if_neg h0, if_neg hp]
    by_cases hc0 : c.val = 0
    · rw [if_pos hc0]
      show nz (x0 (ix2 _ _)) = nz (a _)
      rw [hx]
      refine congrArg (fun p => nz (a p)) (Fin.ext ?_)
      show (b.val * 8192 + (r.val - 1)) * 128 + 127 = (b.val * 8192 + r.val) * 128 + c.val - 1
      omega
    · rw [if_neg hc0]
      show nz (x0 (ix2 _ _)) = nz (a _)
      rw [hx]
      refine congrArg (fun p => nz (a p)) (Fin.ext ?_)
      show (b.val * 8192 + r.val) * 128 + (c.val - 1) = (b.val * 8192 + r.val) * 128 + c.val - 1
      omega

variable (m : (ℓ : Loc nD τ sig) → Buf (Elt Ideal) ℓ)

/-- The two arguments as flat sequences. -/
abbrev seqX (c : Dev nD) : Fin 16777216 → EReal := seqOf (m ((c : Thread nD τ).loc main_arg0))
abbrev seqT (c : Dev nD) : Fin 16777216 → EReal := seqOf (m ((c : Thread nD τ).loc main_arg1))

theorem stats0 (c : Dev nD) (b : Fin 16) :
    stats m c (ix3 b (0 : Fin 1) (⟨0, by omega⟩ : Fin 128)) = ∑ r : Fin 8192, ∑ cc : Fin 128, seqX m c (flat3 b r cc) := by
  unfold stats rowAt
  refine ((congrFun (out_eq _ _) _).trans (Body.lane0 _ _ _)).trans ?_
  exact Finset.sum_congr rfl fun r _ => Finset.sum_congr rfl fun cc _ => iblk0_apply m c _ r cc b rfl

theorem stats1 (c : Dev nD) (b : Fin 16) :
    stats m c (ix3 b (0 : Fin 1) (⟨1, by omega⟩ : Fin 128)) = ∑ r : Fin 8192, ∑ cc : Fin 128, seqT m c (flat3 b r cc) := by
  unfold stats rowAt
  refine ((congrFun (out_eq _ _) _).trans (Body.lane1 _ _ _)).trans ?_
  exact Finset.sum_congr rfl fun r _ => Finset.sum_congr rfl fun cc _ => iblk1_apply m c _ r cc b rfl

theorem stats2 (c : Dev nD) (b : Fin 16) :
    stats m c (ix3 b (0 : Fin 1) (⟨2, by omega⟩ : Fin 128))
      = ∑ r : Fin 8192, ∑ cc : Fin 128, seqX m c (flat3 b r cc) * seqT m c (flat3 b r cc) := by
  unfold stats rowAt
  refine ((congrFun (out_eq _ _) _).trans (Body.lane2 _ _ _)).trans ?_
  exact Finset.sum_congr rfl fun r _ => Finset.sum_congr rfl fun cc _ =>
    congrArg₂ (fun u v : EReal => u * v) (iblk0_apply m c _ r cc b rfl) (iblk1_apply m c _ r cc b rfl)

theorem stats3 (c : Dev nD) (b : Fin 16) :
    stats m c (ix3 b (0 : Fin 1) (⟨3, by omega⟩ : Fin 128))
      = ∑ r : Fin 8192, ∑ cc : Fin 128, bce (seqX m c (flat3 b r cc)) (seqT m c (flat3 b r cc)) := by
  unfold stats rowAt
  refine ((congrFun (out_eq _ _) _).trans (Body.lane3 _ _ _)).trans ?_
  exact Finset.sum_congr rfl fun r _ => Finset.sum_congr rfl fun cc _ =>
    congrArg₂ bce (iblk0_apply m c _ r cc b rfl) (iblk1_apply m c _ r cc b rfl)

theorem stats4 (c : Dev nD) (b : Fin 16) :
    stats m c (ix3 b (0 : Fin 1) (⟨4, by omega⟩ : Fin 128))
      = ∑ r : Fin 8192, ∑ cc : Fin 128, nz (seqX m c (flat3 b r cc)) * (1 - prevNz (seqX m c) (flat3 b r cc)) := by
  unfold stats rowAt
  refine ((congrFun (out_eq _ _) _).trans (Body.lane4 _ _ _)).trans ?_
  exact Finset.sum_congr rfl fun r _ => Finset.sum_congr rfl fun cc _ =>
    congrArg₂ (fun u v : EReal => nz u * (1 - v)) (iblk0_apply m c _ r cc b rfl)
      (block_prev _ (seqX m c) b (fun r' c' => iblk0_apply m c _ r' c' b rfl) r cc)

theorem stats5 (c : Dev nD) (b : Fin 16) :
    stats m c (ix3 b (0 : Fin 1) (⟨5, by omega⟩ : Fin 128))
      = nz (seqX m c (flat3 b (⟨0, by omega⟩ : Fin 8192) (⟨0, by omega⟩ : Fin 128))) := by
  unfold stats rowAt
  refine ((congrFun (out_eq _ _) _).trans (Body.lane5 _ _ _)).trans ?_
  exact congrArg nz (iblk0_apply m c _ _ _ b rfl)

theorem stats6 (c : Dev nD) (b : Fin 16) :
    stats m c (ix3 b (0 : Fin 1) (⟨6, by omega⟩ : Fin 128))
      = nz (seqX m c (flat3 b (⟨8191, by omega⟩ : Fin 8192) (⟨127, by omega⟩ : Fin 128))) := by
  unfold stats rowAt
  refine ((congrFun (out_eq _ _) _).trans (Body.lane6 _ _ _)).trans ?_
  exact congrArg nz (iblk0_apply m c _ _ _ b rfl)

end Cert.KernelIdeal.Hand

end
-- ==== Proof.KernelTail.lean ====
/-
  The host lines after the region, as one function of the statistics array: five column sums, the boundary
  correction, and the closing arithmetic.
-/
import proofs.«102038_j34668976013761_2_alg».proof.Proof.Gen.KernelIdeal.Frame
import proofs.«102038_j34668976013761_2_alg».proof.Proof.Flat
import proofs.«102038_j34668976013761_2_alg».proof.Proof.LibColumnLayout
import Idealize.ShloMosaic.Lib.ValueLayout
import Idealize.ShloMosaic.PureOps.Ideal.Laws
import Idealize.ShloMosaic.Lib.Pipeline.Value
import Idealize.ShloMosaic.Lib.StableHlo.Run
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

/-- Column `k` of the [16, 128] statistics, as a vector of 16. -/
def col (v3 : FVec Ideal S16x128 .f32) (k : ℕ) (h : S16x128.Slices ![0, k] S16x1) : FVec Ideal S16 .f32 :=
  shapeCast S16 (extractStridedSlice S16x1 ![0, k] v3 h) shapeCasts_S16x1_S16

/-- Its sum from the zero initial value. -/
def colSum (v3 : FVec Ideal S16x128 .f32) (k : ℕ) (h : S16x128.Slices ![0, k] S16x1) : FVec Ideal S_ .f32 :=
  Host.reduceAdd (col v3 k h) (constant (F := Ideal) S_ .f32 0x00000000#32) reducesTo_S16_S_d0 h_S_

/-- The host lines after the region, composed. -/
def tailOf (v2 : FVec Ideal S16x1x128 .f32) : FVec Ideal S_ .f32 :=
  let v3 : FVec Ideal S16x128 .f32 := shapeCast S16x128 v2 shapeCasts_S16x1x128_S16x128
  let v6 := colSum v3 0 slices_S16x128_S16x1_0_0
  let v9 := colSum v3 1 slices_S16x128_S16x1_0_1
  let v12 := colSum v3 2 slices_S16x128_S16x1_0_2
  let v15 := colSum v3 3 slices_S16x128_S16x1_0_3
  let v18 := colSum v3 4 slices_S16x128_S16x1_0_4
  let v20 := col v3 5 slices_S16x128_S16x1_0_5
  let v22 := col v3 6 slices_S16x128_S16x1_0_6
  let v26 : FVec Ideal S_ .f32 := Host.reduceAdd (mulf (extractStridedSlice S15 ![0] v22 slices_S16_S15_0)
    (extractStridedSlice S15 ![1] v20 slices_S16_S15_1)) (constant (F := Ideal) S_ .f32 0x00000000#32) reducesTo_S15_S_d0 h_S_
  let v27 := subf v18 v26
  let v29 := addf (mulf (constant (F := Ideal) S_ .f32 0x40000000#32) v12) (constant (F := Ideal) S_ .f32 0x3F800000#32)
  let v31 := addf (addf v6 v9) (constant (F := Ideal) S_ .f32 0x3F800000#32)
  let v33 := subf (constant (F := Ideal) S_ .f32 0x3F800000#32) (Host.divf v29 v31)
  let v34 := Host.divf v15 (constant (F := Ideal) S_ .f32 0x4B800000#32)
  let v37 := Host.divf (Host.absf (subf v27 (constant (F := Ideal) S_ .f32 0x3F800000#32))) (constant (F := Ideal) S_ .f32 0x48800000#32)
  addf (addf (mulf v34 (constant (F := Ideal) S_ .f32 0x3F000000#32)) v33) (mulf v37 (constant (F := Ideal) S_ .f32 0x3F800000#32))

/-! ## The host lines read at an index -/

/-- Entry (b, l) of the [16, 128] view is entry (b, 0, l) of the [16, 1, 128] array. -/
theorem v3_apply (s : FVec Ideal S16x1x128 .f32) (b : Fin 16) (l : Fin 128) :
    shapeCast S16x128 s shapeCasts_S16x1x128_S16x128 (ix2 b l) = s (ix3 b (0 : Fin 1) l) :=
  shapeCast_apply s _ _ _ (by
    rw [Shape.rowMajor_val_three, Shape.rowMajor_val_two]
    show (b.val * 1 + 0) * 128 + l.val = b.val * 128 + l.val
    omega)

/-- Entry b of column k. -/
theorem col_apply (v3 : FVec Ideal S16x128 .f32) (k : ℕ) (hk : k < 128) (h : S16x128.Slices ![0, k] S16x1) (b : Fin 16) :
    col v3 k h (ix1 b) = v3 (ix2 b (⟨k, hk⟩ : Fin 128)) := by
  unfold col
  refine (Cert.ColumnLayout.shapeCast_a1_a_apply _ shapeCasts_S16x1_S16 b).trans ?_
  exact slice2_axis1_apply k v3 h b (0 : Fin 1) (⟨k, hk⟩ : Fin 128) rfl

/-- A host sum of a vector from the zero initial value is the plain sum of its entries. -/
theorem hostSum_apply {n : ℕ} (y : FVec Ideal (⟨1, ![n]⟩ : Shape) .f32) (h : (⟨1, ![n]⟩ : Shape).ReducesTo [0] S_)
    (hu : 0 < S_.numel) (i : S_.Idx) :
    Host.reduceAdd y (constant (F := Ideal) S_ .f32 0x00000000#32) h hu i = ∑ p : Fin n, y (ix1 p) := by
  have e : Host.reduceAdd y (constant (F := Ideal) S_ .f32 0x00000000#32) h hu i
      = Ideal.ofBits .f32 0x00000000#32 + ∑ j : (⟨1, ![n]⟩ : Shape).Idx, y j := by
    simp only [Host.reduceAdd, Ideal.hostReduceAdd_def]
    exact Ideal.hostReduceAdd_total h (fun b => b.elim0) y _ i
  rw [e, Ideal.ofBits_zero_f32, zero_add, Cert.Flat.sum_idx1]

/-- The sum of column k. -/
theorem colSum_apply (v3 : FVec Ideal S16x128 .f32) (k : ℕ) (hk : k < 128) (h : S16x128.Slices ![0, k] S16x1) (i : S_.Idx) :
    colSum v3 k h i = ∑ b : Fin 16, v3 (ix2 b (⟨k, hk⟩ : Fin 128)) := by
  unfold colSum
  rw [hostSum_apply]
  exact Finset.sum_congr rfl fun b _ => col_apply v3 k hk h b

/-- The host lines after the region, at their one index: the loss of the five column sums, the fifth less the sum over
    the fifteen block boundaries of (last-entry indicator of block k) · (first-entry indicator of block k + 1). -/
theorem tailOf_apply (s : FVec Ideal S16x1x128 .f32) (i : S_.Idx) :
    tailOf s i = Cert.Flat.loss
      (∑ b : Fin 16, s (ix3 b (0 : Fin 1) (⟨0, by omega⟩ : Fin 128)))
      (∑ b : Fin 16, s (ix3 b (0 : Fin 1) (⟨1, by omega⟩ : Fin 128)))
      (∑ b : Fin 16, s (ix3 b (0 : Fin 1) (⟨2, by omega⟩ : Fin 128)))
      (∑ b : Fin 16, s (ix3 b (0 : Fin 1) (⟨3, by omega⟩ : Fin 128)))
      ((∑ b : Fin 16, s (ix3 b (0 : Fin 1) (⟨4, by omega⟩ : Fin 128)))
        - ∑ k : Fin 15, s (ix3 (⟨k.val, by omega⟩ : Fin 16) (0 : Fin 1) (⟨6, by omega⟩ : Fin 128))
            * s (ix3 (⟨k.val + 1, by omega⟩ : Fin 16) (0 : Fin 1) (⟨5, by omega⟩ : Fin 128))) := by
  have hc : ∀ (k : ℕ) (hk : k < 128) (h : S16x128.Slices ![0, k] S16x1),
      colSum (shapeCast S16x128 s shapeCasts_S16x1x128_S16x128) k h i
        = ∑ b : Fin 16, s (ix3 b (0 : Fin 1) (⟨k, hk⟩ : Fin 128)) := fun k hk h => by
    rw [colSum_apply _ k hk h i]
    exact Finset.sum_congr rfl fun b _ => v3_apply s b _
  have hcorr : Host.reduceAdd (mulf
        (extractStridedSlice S15 ![0] (col (shapeCast S16x128 s shapeCasts_S16x1x128_S16x128) 6 slices_S16x128_S16x1_0_6) slices_S16_S15_0)
        (extractStridedSlice S15 ![1] (col (shapeCast S16x128 s shapeCasts_S16x1x128_S16x128) 5 slices_S16x128_S16x1_0_5) slices_S16_S15_1))
        (constant (F := Ideal) S_ .f32 0x00000000#32) reducesTo_S15_S_d0 h_S_ i
      = ∑ k : Fin 15, s (ix3 (⟨k.val, by omega⟩ : Fin 16) (0 : Fin 1) (⟨6, by omega⟩ : Fin 128))
            * s (ix3 (⟨k.val + 1, by omega⟩ : Fin 16) (0 : Fin 1) (⟨5, by omega⟩ : Fin 128)) := by
    rw [hostSum_apply]
    refine Finset.sum_congr rfl fun k _ => ?_
    refine (congrArg₂ (fun a b : EReal => a * b)
      (extractStridedSlice_apply ![0] (col (shapeCast S16x128 s shapeCasts_S16x1x128_S16x128) 6 slices_S16x128_S16x1_0_6)
        slices_S16_S15_0 (ix1 k) (ix1 (⟨k.val, by omega⟩ : Fin 16))
        (fun a => by match a with | ⟨0, _⟩ => exact (Nat.zero_add _).symm))
      (extractStridedSlice_apply ![1] (col (shapeCast S16x128 s shapeCasts_S16x1x128_S16x128) 5 slices_S16x128_S16x1_0_5)
        slices_S16_S15_1 (ix1 k) (ix1 (⟨k.val + 1, by omega⟩ : Fin 16))
        (fun a => by match a with | ⟨0, _⟩ => exact Nat.add_comm _ _))).trans ?_
    rw [col_apply _ 6 (by omega), col_apply _ 5 (by omega), v3_apply, v3_apply]
  rw [← hc 0 (by omega) slices_S16x128_S16x1_0_0, ← hc 1 (by omega) slices_S16x128_S16x1_0_1,
    ← hc 2 (by omega) slices_S16x128_S16x1_0_2, ← hc 3 (by omega) slices_S16x128_S16x1_0_3,
    ← hc 4 (by omega) slices_S16x128_S16x1_0_4, ← hcorr]
  rfl

variable (m : (ℓ : Loc nD τ sig) → Buf (Elt Ideal) ℓ)

set_option maxHeartbeats 25000000 in
/-- The program's result after the host lines is `tailOf` of the statistics array as the region leaves it. -/
theorem tail_eq (c : Dev nD) :
    (Pipeline.afterTail₀ cfgs (dats m) 0 (V0 m) [hostOps1] c main_v41 : S_.Idx → EReal)
      = tailOf ((dats m 0 c).arrAt 2 cfg0.N) := by
  unfold Pipeline.afterTail₀
  show StableHlo.after hostOps1 _ (Proc.devRef .tc main_v41) = _
  after_results_simp
  rw [show Pipeline.withArrays (cfgs 0).spec c (V0 m c) (fun w => (dats m 0 c).arrAt w (cfgs 0).N) (Proc.tc.devRef main_v2)
      = (dats m 0 c).arrAt 2 cfg0.N from
    Pipeline.withArrays_arr spec0 launch0.win.arr_inj c (V0 m c) (fun w => (dats m 0 c).arrAt w (cfgs 0).N) 2]
  rfl

end Cert.KernelIdeal.Hand

end
-- ==== Proof.RunCount.lean ====
/-
  Two counting facts about the flat sequence of 16777216 positions.

  First: block b, row r, lane c name position (b·8192 + r)·128 + c, and every position is named exactly once
  (position i is lane i % 128 of row i / 128 % 8192 of block i / 1048576), so a sum taken block by block, row by
  row, lane by lane is the sum over all positions.

  Second: call position i a LOCAL START when its entry is nonzero and either i is the first position of its
  block of 1048576 or the entry before it is zero. Every run start is a local start. A local start that is not
  a run start is the first position of a block other than block 0 whose entry, and the entry before it, are
  both nonzero: these are exactly the positions firstIdx k for the block boundaries k both of whose sides are
  nonzero. Hence  #local starts = #run starts + #such boundaries.  All the summands in the statement are 0/1
  indicators, so the two sums are these two counts and the identity follows by subtracting.
-/
import proofs.«102038_j34668976013761_2_alg».proof.Proof.Spec

noncomputable section

open scoped Classical

namespace Cert.Spec

/-! ### Summing by blocks -/

/-- Block, row and lane together name a flat position, and every flat position is named exactly once. -/
private def flatEquiv : Fin 16 × Fin 8192 × Fin 128 ≃ Fin 16777216 where
  toFun p := flat3 p.1 p.2.1 p.2.2
  invFun i := (⟨i.val / 1048576, by have := i.isLt; omega⟩,
               ⟨i.val / 128 % 8192, by omega⟩,
               ⟨i.val % 128, by omega⟩)
  left_inv := by
    rintro ⟨b, r, c⟩
    have := b.isLt; have := r.isLt; have := c.isLt
    simp only [flat3, Prod.mk.injEq, Fin.ext_iff]
    refine ⟨?_, ?_, ?_⟩ <;> omega
  right_inv := by
    intro i
    simp only [flat3, Fin.ext_iff]
    omega

/-- Summing block by block, row by row, lane by lane visits every flat position exactly once. -/
theorem sum_blocks {M : Type*} [AddCommMonoid M] (f : Fin 16777216 → M) :
    ∑ b : Fin 16, ∑ r : Fin 8192, ∑ c : Fin 128, f (flat3 b r c) = ∑ i, f i := by
  rw [← Fintype.sum_equiv flatEquiv (fun p => f (flat3 p.1 p.2.1 p.2.2)) f (fun _ => rfl)]
  rw [Fintype.sum_prod_type]
  refine Finset.sum_congr rfl fun b _ => ?_
  rw [Fintype.sum_prod_type]

/-! ### Counting run starts -/

/-- The position before i (position 0 is its own predecessor; it is never consulted there). -/
private def prev (i : Fin 16777216) : Fin 16777216 := ⟨i.val - 1, by have := i.isLt; omega⟩

private theorem prev_val (i : Fin 16777216) : (prev i).val = i.val - 1 := rfl
private theorem firstIdx_val (k : Fin 15) : (firstIdx k).val = (k.val + 1) * 1048576 := rfl
private theorem lastIdx_val (k : Fin 15) : (lastIdx k).val = k.val * 1048576 + 1048575 := rfl

/-- Nonzero entry, and first in its block or preceded by a zero entry. -/
private abbrev LocalStart (a : Fin 16777216 → EReal) (i : Fin 16777216) : Prop :=
  a i ≠ 0 ∧ (i.val % 1048576 = 0 ∨ a (prev i) = 0)

/-- Nonzero entry, and at position 0 or preceded by a zero entry. -/
private abbrev Start (a : Fin 16777216 → EReal) (i : Fin 16777216) : Prop :=
  a i ≠ 0 ∧ (i.val = 0 ∨ a (prev i) = 0)

/-- A block boundary both of whose sides are nonzero. -/
private abbrev Joined (a : Fin 16777216 → EReal) (k : Fin 15) : Prop :=
  a (lastIdx k) ≠ 0 ∧ a (firstIdx k) ≠ 0

private theorem runStarts_eq (a : Fin 16777216 → EReal) :
    runStarts a = (Finset.univ.filter (Start a)).card := by
  unfold runStarts
  refine congrArg Finset.card ?_
  ext i
  simp only [Finset.mem_filter, Finset.mem_univ, true_and]
  exact Iff.rfl

/-- A finite sum of reals, each read as an extended real, is the real sum read as an extended real. -/
private theorem coe_sum {ι : Type*} (s : Finset ι) (g : ι → ℝ) :
    ∑ i ∈ s, ((g i : ℝ) : EReal) = ((∑ i ∈ s, g i : ℝ) : EReal) := by
  induction s using Finset.induction_on with
  | empty => simp
  | insert x s hx ih => rw [Finset.sum_insert hx, Finset.sum_insert hx, ih, EReal.coe_add]

/-- The block-local summand is the indicator of a local start. -/
private theorem local_term (a : Fin 16777216 → EReal) (i : Fin 16777216) :
    nz (a i) * (1 - prevNz a i) = (((if LocalStart a i then 1 else 0 : ℝ)) : EReal) := by
  have hprev : prevNz a i = if i.val % 1048576 = 0 then 0 else nz (a (prev i)) := rfl
  rw [hprev]
  unfold nz
  by_cases h0 : a i = 0
  · simp [LocalStart, h0]
  · by_cases hm : i.val % 1048576 = 0
    · simp [LocalStart, h0, hm]
    · by_cases hp : a (prev i) = 0
      · simp [LocalStart, h0, hm, hp]
      · -- 1 - 1 = 0 holds among the extended reals because 1 is a real number
        have h11 : (1 : EReal) - 1 = 0 := by
          rw [← EReal.coe_one, ← EReal.coe_sub, sub_self, EReal.coe_zero]
        simp [LocalStart, h0, hm, hp, h11]

/-- The boundary summand is the indicator of a boundary with both sides nonzero. -/
private theorem boundary_term (a : Fin 16777216 → EReal) (k : Fin 15) :
    nz (a (lastIdx k)) * nz (a (firstIdx k)) = (((if Joined a k then 1 else 0 : ℝ)) : EReal) := by
  unfold nz
  by_cases h1 : a (lastIdx k) = 0 <;> by_cases h2 : a (firstIdx k) = 0 <;> simp [Joined, h1, h2]

/-- #local starts = #run starts + #boundaries with both sides nonzero. -/
private theorem card_localStart (a : Fin 16777216 → EReal) :
    (Finset.univ.filter (LocalStart a)).card
      = (Finset.univ.filter (Start a)).card + (Finset.univ.filter (Joined a)).card := by
  have h := Finset.card_filter_add_card_filter_not (s := Finset.univ.filter (LocalStart a)) (Start a)
  rw [Finset.filter_filter, Finset.filter_filter] at h
  rw [← h]
  refine congrArg₂ (· + ·) ?_ ?_
  · -- every run start is a local start, since position 0 is the first position of block 0
    refine congrArg Finset.card (Finset.filter_congr fun i _ => ?_)
    constructor
    · exact fun h => h.2
    · rintro ⟨h0, h⟩
      refine ⟨⟨h0, ?_⟩, h0, h⟩
      rcases h with h | h
      · left; omega
      · right; exact h
  · -- the local starts that are not run starts are the positions firstIdx k, k a joined boundary
    symm
    refine Finset.card_bij (fun k _ => firstIdx k) ?_ ?_ ?_
    · intro k hk
      rw [Finset.mem_filter] at hk ⊢
      obtain ⟨_, hl, hf⟩ := hk
      have hv := firstIdx_val k
      have hprev : prev (firstIdx k) = lastIdx k :=
        Fin.ext (by rw [prev_val, lastIdx_val, firstIdx_val]; omega)
      refine ⟨Finset.mem_univ _, ⟨hf, Or.inl (by omega)⟩, ?_⟩
      rintro ⟨_, h | h⟩
      · omega
      · rw [hprev] at h; exact hl h
    · intro k₁ _ k₂ _ h
      have h' := congrArg Fin.val h
      rw [firstIdx_val, firstIdx_val] at h'
      exact Fin.ext (by omega)
    · intro i hi
      rw [Finset.mem_filter] at hi
      obtain ⟨_, ⟨h0, hl⟩, hns⟩ := hi
      have hi0 : i.val ≠ 0 := fun h => hns ⟨h0, Or.inl h⟩
      have hp : a (prev i) ≠ 0 := fun h => hns ⟨h0, Or.inr h⟩
      have hm : i.val % 1048576 = 0 := hl.resolve_right hp
      have hlt := i.isLt
      have hk : i.val / 1048576 - 1 < 15 := by omega
      have hfirst : firstIdx ⟨i.val / 1048576 - 1, hk⟩ = i :=
        Fin.ext (by rw [firstIdx_val]; show (i.val / 1048576 - 1 + 1) * 1048576 = i.val; omega)
      have hlast : lastIdx ⟨i.val / 1048576 - 1, hk⟩ = prev i :=
        Fin.ext (by
          rw [lastIdx_val, prev_val]
          show (i.val / 1048576 - 1) * 1048576 + 1048575 = i.val - 1
          omega)
      refine ⟨⟨i.val / 1048576 - 1, hk⟩, ?_, hfirst⟩
      rw [Finset.mem_filter]
      exact ⟨Finset.mem_univ _, by rw [hlast]; exact hp, by rw [hfirst]; exact h0⟩

/-- The block-local count of run starts, less one for every block boundary with both sides nonzero, is the number of run starts. -/
theorem run_count (a : Fin 16777216 → EReal) :
    (∑ i, nz (a i) * (1 - prevNz a i)) - ∑ k : Fin 15, nz (a (lastIdx k)) * nz (a (firstIdx k))
      = ((runStarts a : ℝ) : EReal) := by
  have h1 : ∑ i, nz (a i) * (1 - prevNz a i)
      = (((Finset.univ.filter (LocalStart a)).card : ℝ) : EReal) := by
    calc ∑ i, nz (a i) * (1 - prevNz a i)
        = ∑ i, (((if LocalStart a i then 1 else 0 : ℝ)) : EReal) :=
          Finset.sum_congr rfl fun i _ => local_term a i
      _ = ((∑ i, (if LocalStart a i then 1 else 0 : ℝ) : ℝ) : EReal) := coe_sum _ _
      _ = _ := by rw [Finset.sum_boole]
  have h2 : ∑ k : Fin 15, nz (a (lastIdx k)) * nz (a (firstIdx k))
      = (((Finset.univ.filter (Joined a)).card : ℝ) : EReal) := by
    calc ∑ k : Fin 15, nz (a (lastIdx k)) * nz (a (firstIdx k))
        = ∑ k : Fin 15, (((if Joined a k then 1 else 0 : ℝ)) : EReal) :=
          Finset.sum_congr rfl fun k _ => boundary_term a k
      _ = ((∑ k : Fin 15, (if Joined a k then 1 else 0 : ℝ) : ℝ) : EReal) := coe_sum _ _
      _ = _ := by rw [Finset.sum_boole]
  rw [h1, h2, ← EReal.coe_sub, card_localStart, runStarts_eq, Nat.cast_add, add_sub_cancel_right]

end Cert.Spec

end
-- ==== Proof.KernelValue.lean ====
/-
  The kernel's result. After the region the statistics array holds the sixteen blocks' numbers; the host lines sum
  the first five columns over the blocks, correct the run count at the fifteen block boundaries, and close with the
  loss expression. Summing block by block, row by row, lane by lane visits every flat position once, and the corrected
  block-local run count is the number of run starts, so the result is the loss of the five quantities of the two flat
  sequences.
-/
import proofs.«102038_j34668976013761_2_alg».proof.Proof.KernelStats
import proofs.«102038_j34668976013761_2_alg».proof.Proof.KernelTail
import proofs.«102038_j34668976013761_2_alg».proof.Proof.RunCount

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL.Sem
open Cert.Spec Cert.Flat

variable (m : (ℓ : Loc nD τ sig) → Buf (Elt Ideal) ℓ)

/-- The loss of the two arguments' flat sequences. -/
def lossOf (c : Dev nD) : EReal :=
  loss (∑ p, seqX m c p) (∑ p, seqT m c p) (∑ p, seqX m c p * seqT m c p)
    (∑ p, bce (seqX m c p) (seqT m c p)) (((runStarts (seqX m c) : ℕ) : ℝ) : EReal)

/-- The last entry of block k and the first entry of block k + 1, as flat positions. -/
theorem last_eq (k : Fin 15) :
    flat3 (⟨k.val, by omega⟩ : Fin 16) (⟨8191, by omega⟩ : Fin 8192) (⟨127, by omega⟩ : Fin 128) = lastIdx k :=
  Fin.ext (by show (k.val * 8192 + 8191) * 128 + 127 = k.val * 1048576 + 1048575; omega)
theorem first_eq (k : Fin 15) :
    flat3 (⟨k.val + 1, by omega⟩ : Fin 16) (⟨0, by omega⟩ : Fin 8192) (⟨0, by omega⟩ : Fin 128) = firstIdx k :=
  Fin.ext (by show ((k.val + 1) * 8192 + 0) * 128 + 0 = (k.val + 1) * 1048576; omega)

/-- The program's result, at its one index. -/
theorem kernel_value (c : Dev nD) (i : S_.Idx) :
    (Pipeline.afterTail₀ cfgs (dats m) 0 (V0 m) [hostOps1] c main_v41 : S_.Idx → EReal) i = lossOf m c := by
  refine (congrFun (tail_eq m c) i).trans ?_
  rw [final, tailOf_apply]
  have e0 : ∑ b : Fin 16, stats m c (ix3 b (0 : Fin 1) (⟨0, by omega⟩ : Fin 128)) = ∑ p, seqX m c p := by
    rw [← sum_blocks]; exact Finset.sum_congr rfl fun b _ => stats0 m c b
  have e1 : ∑ b : Fin 16, stats m c (ix3 b (0 : Fin 1) (⟨1, by omega⟩ : Fin 128)) = ∑ p, seqT m c p := by
    rw [← sum_blocks]; exact Finset.sum_congr rfl fun b _ => stats1 m c b
  have e2 : ∑ b : Fin 16, stats m c (ix3 b (0 : Fin 1) (⟨2, by omega⟩ : Fin 128)) = ∑ p, seqX m c p * seqT m c p := by
    rw [← sum_blocks (fun p => seqX m c p * seqT m c p)]; exact Finset.sum_congr rfl fun b _ => stats2 m c b
  have e3 : ∑ b : Fin 16, stats m c (ix3 b (0 : Fin 1) (⟨3, by omega⟩ : Fin 128))
      = ∑ p, bce (seqX m c p) (seqT m c p) := by
    rw [← sum_blocks (fun p => bce (seqX m c p) (seqT m c p))]; exact Finset.sum_congr rfl fun b _ => stats3 m c b
  have e4 : ∑ b : Fin 16, stats m c (ix3 b (0 : Fin 1) (⟨4, by omega⟩ : Fin 128))
      = ∑ p, nz (seqX m c p) * (1 - prevNz (seqX m c) p) := by
    rw [← sum_blocks (fun p => nz (seqX m c p) * (1 - prevNz (seqX m c) p))]
    exact Finset.sum_congr rfl fun b _ => stats4 m c b
  have e5 : ∑ k : Fin 15, stats m c (ix3 (⟨k.val, by omega⟩ : Fin 16) (0 : Fin 1) (⟨6, by omega⟩ : Fin 128))
        * stats m c (ix3 (⟨k.val + 1, by omega⟩ : Fin 16) (0 : Fin 1) (⟨5, by omega⟩ : Fin 128))
      = ∑ k : Fin 15, nz (seqX m c (lastIdx k)) * nz (seqX m c (firstIdx k)) := by
    refine Finset.sum_congr rfl fun k _ => ?_
    rw [stats6, stats5, last_eq, first_eq]
  rw [e0, e1, e2, e3, e4, e5, run_count]
  rfl

/-- The run, read: the result at the loss of the flat sequences, the arguments unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v41) = (fun _ => lossOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v41 (Pipeline.mem_restRefs_of main_v41 (by decide) (by decide))).trans
        (funext fun i => kernel_value m c i),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Hand

end
-- ==== Proof.RefSums.lean ====
/-
  The reference's three float sums and its sum of cross-entropy terms, each read as a sum over the flat positions of
  the two argument sequences: a reshape to one long vector preserves row-major position, and a host sum from the zero
  initial value is the plain sum.
-/
import proofs.«102038_j34668976013761_2_alg».proof.Proof.Gen.ReferenceIdeal.Read
import proofs.«102038_j34668976013761_2_alg».proof.Proof.Spec
import proofs.«102038_j34668976013761_2_alg».proof.Proof.Flat
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open Cert.Flat

/-- The index the first reshape reads for flat position `p` is position `p` of the row-major order. -/
theorem idx0 (p : Fin 16777216) : idx_main_v0 (ix1 p) = unflat p := by
  funext a; match a with | ⟨0, _⟩ => rfl | ⟨1, _⟩ => rfl | ⟨2, _⟩ => rfl | ⟨3, _⟩ => rfl
theorem idx1 (p : Fin 16777216) : idx_main_v1 (ix1 p) = unflat p := by
  funext a; match a with | ⟨0, _⟩ => rfl | ⟨1, _⟩ => rfl | ⟨2, _⟩ => rfl | ⟨3, _⟩ => rfl

theorem v0_at (x0 : (⟨S64x1x512x512, .f32⟩ : BufTy).Contents (Elt Ideal)) (p : Fin 16777216) :
    val_main_v0 (F := Ideal) x0 (ix1 p) = seqOf x0 p := by
  rw [val_main_v0_apply, idx0]; rfl
theorem v1_at (x1 : (⟨S64x1x512x512, .f32⟩ : BufTy).Contents (Elt Ideal)) (p : Fin 16777216) :
    val_main_v1 (F := Ideal) x1 (ix1 p) = seqOf x1 p := by
  rw [val_main_v1_apply, idx1]; rfl

/-- The sum of x. -/
theorem v6_eq (x0 : (⟨S64x1x512x512, .f32⟩ : BufTy).Contents (Elt Ideal)) (i : S_.Idx) :
    val_main_v6 (F := Ideal) x0 i = ∑ p, seqOf x0 p := by
  rw [val_main_v6_apply]
  show Ideal.ofBits .f32 0x00000000#32 + _ = _
  rw [Ideal.ofBits_zero_f32, zero_add, sum_idx1]
  exact Finset.sum_congr rfl fun p _ => v0_at x0 p

/-- The sum of t. -/
theorem v7_eq (x1 : (⟨S64x1x512x512, .f32⟩ : BufTy).Contents (Elt Ideal)) (i : S_.Idx) :
    val_main_v7 (F := Ideal) x1 i = ∑ p, seqOf x1 p := by
  rw [val_main_v7_apply]
  show Ideal.ofBits .f32 0x00000000#32 + _ = _
  rw [Ideal.ofBits_zero_f32, zero_add, sum_idx1]
  exact Finset.sum_congr rfl fun p _ => v1_at x1 p

/-- The sum of x·t. -/
theorem v3_eq (x0 x1 : (⟨S64x1x512x512, .f32⟩ : BufTy).Contents (Elt Ideal)) (i : S_.Idx) :
    val_main_v3 (F := Ideal) x0 x1 i = ∑ p, seqOf x0 p * seqOf x1 p := by
  rw [val_main_v3_apply]
  show Ideal.ofBits .f32 0x00000000#32 + _ = _
  rw [Ideal.ofBits_zero_f32, zero_add, sum_idx1]
  refine Finset.sum_congr rfl fun p _ => ?_
  rw [val_main_v2_apply, v0_at, v1_at]; rfl

/-- The sum of the cross-entropy terms. -/
theorem v25_eq (x0 x1 : (⟨S64x1x512x512, .f32⟩ : BufTy).Contents (Elt Ideal)) (i : S_.Idx) :
    val_main_v25 (F := Ideal) x0 x1 i = ∑ p, bce (seqOf x0 p) (seqOf x1 p) := by
  rw [val_main_v25_apply]
  show Ideal.ofBits .f32 0x00000000#32 + _ = _
  rw [Ideal.ofBits_zero_f32, zero_add, sum_idx1]
  refine Finset.sum_congr rfl fun p _ => ?_
  rw [val_main_v24_apply, val_main_v23_apply, val_main_v19_apply, val_main_v22_apply, val_main_v14_apply,
    val_main_v18_apply, val_main_v12_apply, val_main_v16_apply, val_main_v15_apply, val_main_v21_apply,
    val_main_v13_apply, val_main_v17_apply, val_main_v20_apply, v0_at, v1_at]
  rfl

end Cert.ReferenceIdeal.RefValue

end
-- ==== Proof.CountBits.lean ====
import proofs.«102038_j34668976013761_2_alg».proof.Proof.Spec
noncomputable section
open scoped Classical
namespace Cert.Spec
open Idealize.ShloMosaic

/-- A wrapping 32-bit sum over a finite set is the sum of the unsigned values of its terms, reduced modulo 2^32. -/
private theorem fold_addi_eq_ofNat {ι : Type} (s : Finset ι) (g : ι → BitVec 32) :
    s.fold IntOp.addi (0#32) g = BitVec.ofNat 32 (∑ i ∈ s, (g i).toNat) := by
  induction s using Finset.induction_on with
  | empty => simp
  | insert x s hx ih =>
    rw [Finset.fold_insert hx, Finset.sum_insert hx, ih]
    apply BitVec.eq_of_toNat_eq
    simp [IntOp.addi, BitVec.toNat_add, BitVec.toNat_ofNat]

/-- The run-start bit, widened to 32 bits, has unsigned value 1 at a run start and 0 elsewhere. -/
private theorem startBit_toNat (a : Fin 16777216 → EReal) (i : Fin 16777216) :
    ((startBit a i).setWidth 32).toNat =
      if (a i ≠ 0 ∧ (i.val = 0 ∨ a ⟨i.val - 1, by have := i.isLt; omega⟩ = 0)) then 1 else 0 := by
  unfold startBit
  by_cases h0 : i.val = 0
  · by_cases h1 : a i = 0 <;> simp [Ideal.cmp, h0, h1]
  · by_cases h1 : a i = 0 <;>
      by_cases h2 : a ⟨i.val - 1, by have := i.isLt; omega⟩ = 0 <;>
        simp [Ideal.cmp, IntOp.andi, h0, h1, h2]

/-- The 32-bit sum of the run-start bits, each widened to 32 bits, read as a signed integer, is the number of run starts: the count is at most 16777216 < 2^31, so the sum does not wrap. -/
theorem count_bits (a : Fin 16777216 → EReal) :
    ((((Finset.univ : Finset (Fin 16777216)).fold IntOp.addi (0#32) (fun i => (startBit a i).setWidth 32)).toInt : ℝ) : EReal)
      = ((runStarts a : ℝ) : EReal) := by
  rw [fold_addi_eq_ofNat]
  -- the sum of the unsigned values is the number of run starts
  have hsum : (∑ i ∈ (Finset.univ : Finset (Fin 16777216)), ((startBit a i).setWidth 32).toNat)
      = runStarts a := by
    unfold runStarts
    rw [Finset.card_filter]
    exact Finset.sum_congr rfl (fun i _ => startBit_toNat a i)
  rw [hsum]
  -- the number of run starts is at most the number of positions
  have hle : runStarts a ≤ 16777216 := by
    unfold runStarts
    calc _ ≤ (Finset.univ : Finset (Fin 16777216)).card := Finset.card_filter_le _ _
      _ = 16777216 := Finset.card_fin _
  -- below 2^31 the signed reading of a 32-bit word is its unsigned value
  have hint : (BitVec.ofNat 32 (runStarts a)).toInt = (runStarts a : ℤ) := by
    rw [BitVec.toInt_eq_toNat_cond, BitVec.toNat_ofNat]
    have hmod : runStarts a % 2 ^ 32 = runStarts a := Nat.mod_eq_of_lt (by omega)
    rw [hmod]
    have : 2 * runStarts a < 2 ^ 32 := by omega
    rw [if_pos this]
  rw [hint]
  push_cast
  rfl

end Cert.Spec
end
-- ==== Proof.RefCount.lean ====
/-
  The reference's run count. It compares every entry with zero, marks position 0 by its own bit and every later position
  by its bit AND the complement of the bit before it, widens the marks to 32 bits, adds them, and converts the total:
  the number of run starts.
-/
import proofs.«102038_j34668976013761_2_alg».proof.Proof.Gen.ReferenceIdeal.Read
import proofs.«102038_j34668976013761_2_alg».proof.Proof.Spec
import proofs.«102038_j34668976013761_2_alg».proof.Proof.Flat
import proofs.«102038_j34668976013761_2_alg».proof.Proof.CountBits
import proofs.«102038_j34668976013761_2_alg».proof.Proof.RefSums
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open Cert.Flat

/-- The comparison "entry ≠ 0" at flat position `p`. -/
theorem v28_at (x0 : (⟨S64x1x512x512, .f32⟩ : BufTy).Contents (Elt Ideal)) (p : Fin 16777216) :
    val_main_v28 (F := Ideal) x0 (ix1 p) = Ideal.cmp .une (seqOf x0 p) 0 := by
  rw [val_main_v28_apply, val_main_v27_apply, v0_at]
  show Ideal.cmp .une (seqOf x0 p) (Ideal.ofBits .f32 0x00000000#32) = _
  rw [Ideal.ofBits_zero_f32]

/-- The mark of a run start at flat position `p`. -/
theorem v34_at (x0 : (⟨S64x1x512x512, .f32⟩ : BufTy).Contents (Elt Ideal)) (p : Fin 16777216) :
    val_main_v34 (F := Ideal) x0 (ix1 p) = Spec.startBit (seqOf x0) p := by
  unfold val_main_v34 Spec.startBit
  by_cases hp : p.val = 0
  · rw [if_pos hp]
    refine (concatenate_pair_apply_left (t := S16777216) (s₁ := S1) (s₂ := S16777215) (0 : Fin 1) _ _
      concatenates_S1_S16777215_S16777216_d0 (ix1 p) rfl (ix1 (0 : Fin 1))
      (fun b => by match b with | ⟨0, _⟩ => exact hp.symm)).trans ?_
    rw [val_main_v29_apply]
    have e : idx_main_v29 (ix1 (0 : Fin 1)) = ix1 p := by
      funext a; match a with | ⟨0, _⟩ => exact Fin.ext hp.symm
    rw [e, v28_at]
  · rw [if_neg hp]
    have hlt : p.val - 1 < 16777215 := by have := p.isLt; omega
    refine (concatenate_pair_apply_right (t := S16777216) (s₁ := S1) (s₂ := S16777215) (0 : Fin 1) _ _
      concatenates_S1_S16777215_S16777216_d0 (ix1 p) rfl rfl (ix1 (⟨p.val - 1, hlt⟩ : Fin 16777215))
      (fun b hb => by match b with | ⟨0, _⟩ => exact absurd rfl hb)
      (by show p.val - 1 + 1 = p.val; omega)).trans ?_
    rw [val_main_v33_apply, val_main_v30_apply, val_main_v32_apply, val_main_v31_apply]
    have e1 : idx_main_v30 (ix1 (⟨p.val - 1, hlt⟩ : Fin 16777215)) = ix1 p := by
      funext a; match a with | ⟨0, _⟩ => exact Fin.ext (by show 1 + (p.val - 1) = p.val; omega)
    have e2 : idx_main_v31 (ix1 (⟨p.val - 1, hlt⟩ : Fin 16777215))
        = ix1 (⟨p.val - 1, by have := p.isLt; omega⟩ : Fin 16777216) := by
      funext a; match a with | ⟨0, _⟩ => exact Fin.ext rfl
    rw [e1, e2, v28_at, v28_at]

/-- The 32-bit total of the marks is the 32-bit sum, over the flat positions, of the widened run-start marks. -/
theorem v36_eq (x0 : (⟨S64x1x512x512, .f32⟩ : BufTy).Contents (Elt Ideal)) (i : S_.Idx) :
    val_main_v36 (F := Ideal) x0 i
      = (Finset.univ : Finset (Fin 16777216)).fold IntOp.addi (0#32) (fun p => (Spec.startBit (seqOf x0) p).setWidth 32) := by
  unfold val_main_v36
  rw [Host.reduce_eq_fold, Finset.filter_true_of_mem fun j _ => funext fun b => b.elim0]
  have himg : (Finset.univ : Finset S16777216.Idx) = (Finset.univ : Finset (Fin 16777216)).image (fun p => ix1 p) := by
    ext j; simp only [Finset.mem_univ, Finset.mem_image, true_and, true_iff]
    exact ⟨j 0, (eq_ix1 j).symm⟩
  rw [himg, Finset.fold_image (fun p _ q _ e => by have := congrFun e 0; exact this)]
  refine Finset.fold_congr fun p _ => ?_
  show (val_main_v34 (F := Ideal) x0 (ix1 p)).setWidth 32 = _
  rw [v34_at]

/-- Converted, it is the number of run starts. -/
theorem v37_eq (x0 : (⟨S64x1x512x512, .f32⟩ : BufTy).Contents (Elt Ideal)) (i : S_.Idx) :
    val_main_v37 (F := Ideal) x0 i = (((Spec.runStarts (seqOf x0) : ℕ) : ℝ) : EReal) := by
  rw [val_main_v37_apply]
  show ((((val_main_v36 (F := Ideal) x0 i).toInt : ℤ) : ℝ) : EReal) = _
  rw [v36_eq]
  exact Spec.count_bits _

end Cert.ReferenceIdeal.RefValue

end
-- ==== Proof.RefValue.lean ====
/-
  The reference's result is the loss expression of its five quantities.
-/
import proofs.«102038_j34668976013761_2_alg».proof.Proof.Gen.ReferenceIdeal.Read
import proofs.«102038_j34668976013761_2_alg».proof.Proof.Spec
import proofs.«102038_j34668976013761_2_alg».proof.Proof.Flat
import proofs.«102038_j34668976013761_2_alg».proof.Proof.RefSums
import proofs.«102038_j34668976013761_2_alg».proof.Proof.RefCount
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open Cert.Flat

/-- The reference's result is the loss of the five quantities of the flat sequences. -/
theorem ref_value (x0 x1 : (⟨S64x1x512x512, .f32⟩ : BufTy).Contents (Elt Ideal)) (i : S_.Idx) :
    val_main_v44 (F := Ideal) x0 x1 i
      = loss (∑ p, seqOf x0 p) (∑ p, seqOf x1 p) (∑ p, seqOf x0 p * seqOf x1 p)
          (∑ p, bce (seqOf x0 p) (seqOf x1 p)) (((Spec.runStarts (seqOf x0) : ℕ) : ℝ) : EReal) := by
  rw [val_main_v44_apply, val_main_v42_apply, val_main_v43_apply, val_main_v41_apply, val_main_v11_apply,
    val_main_v40_apply, val_main_v26_apply, val_main_v10_apply, val_main_v39_apply, val_main_v38_apply,
    val_main_v5_apply, val_main_v9_apply, val_main_v4_apply, val_main_v8_apply,
    val_main_cst_14_apply, val_main_cst_5_apply, val_main_cst_15_apply, val_main_cst_13_apply, val_main_cst_10_apply,
    val_main_cst_0_apply, val_main_cst_1_apply, val_main_cst_4_apply, val_main_cst_12_apply,
    v6_eq, v7_eq, v3_eq, v25_eq, v37_eq]
  unfold loss
  rfl

end Cert.ReferenceIdeal.RefValue

end
-- ==== Proof.Claims.lean ====
/-
  The two idealized programs return the same number. The kernel's result is the loss of the five quantities of its
  arguments' flat sequences (block sums reassembled, the block-local run count corrected at the boundaries); the
  reference's result is the same loss of the same five quantities (whole sums, run starts counted directly); the
  arguments agree, so the results agree.
-/
import proofs.«102038_j34668976013761_2_alg».proof.Defs
import proofs.«102038_j34668976013761_2_alg».proof.Proof.Gen.Pre_finite_inputs
import proofs.«102038_j34668976013761_2_alg».proof.Proof.Gen.Kernel.Frame
import proofs.«102038_j34668976013761_2_alg».proof.Proof.Gen.KernelIdeal.Frame
import proofs.«102038_j34668976013761_2_alg».proof.Proof.Gen.ReferenceIdeal.Run
import proofs.«102038_j34668976013761_2_alg».proof.Proof.Gen.ReferenceIdeal.Read
import proofs.«102038_j34668976013761_2_alg».proof.Proof.KernelValue
import proofs.«102038_j34668976013761_2_alg».proof.Proof.RefValue

noncomputable section

namespace Cert.Proof.Claims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the loss of the kernel's arguments' flat sequences. -/
theorem algebraic : Cert.algebraic_KernelIdeal_ReferenceIdeal := by
  intro m ρ m' ρ' _ hagree
  refine ⟨fun c => (fun _ => Cert.KernelIdeal.Hand.lossOf m c), Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq]
  funext i
  rw [Cert.ReferenceIdeal.RefValue.ref_value, (hagree c).1, (hagree c).2]
  rfl

end Cert.Proof.Claims

end
-- ==== Proof.lean ====
/- The proof of `Cert.Claim`.

   The program computes a segmentation loss of two [64, 1, 512, 512] arrays x and t, read as flat sequences of
   16777216 entries: half the mean clamped cross-entropy, plus one minus the smoothed Dice ratio
   (2·Σx·t + 1) / (Σx + Σt + 1), plus |runs − 1| / 2^18 where `runs` is the number of maximal runs of nonzero
   entries of x.

   The reference takes the sums over the whole sequences and counts runs directly: a run starts at a nonzero entry
   whose predecessor is zero or missing. The kernel works on 16 blocks of 8192 × 128 entries: each grid point emits its
   block's four sums, its block-local count of run starts (a block's first entry has no predecessor), and the nonzero
   indicators of its first and last entries; the host lines add the blocks' numbers and take off one run start for every
   block boundary with nonzero entries on both sides.

   At the ideal instance the two agree: sums of extended reals may be regrouped freely, and the corrected block-local
   count is the number of run starts (Proof/RunCount.lean). The reference's integer count does not wrap: it is at most
   2^24 (Proof/CountBits.lean). The three frames are the generated ones; the idealization rewrote nothing, so
   `preserves` is trivial. No hypothesis on the inputs is used. -/
import proofs.«102038_j34668976013761_2_alg».proof.Defs
import proofs.«102038_j34668976013761_2_alg».proof.Proof.Gen.Kernel
import proofs.«102038_j34668976013761_2_alg».proof.Proof.Gen.Kernel.Skeleton
import proofs.«102038_j34668976013761_2_alg».proof.Proof.Gen.Kernel.Launch
import proofs.«102038_j34668976013761_2_alg».proof.Proof.Gen.Kernel.Points
import proofs.«102038_j34668976013761_2_alg».proof.Proof.Gen.Kernel.Frame
import proofs.«102038_j34668976013761_2_alg».proof.Proof.Gen.KernelIdeal
import proofs.«102038_j34668976013761_2_alg».proof.Proof.Gen.KernelIdeal.Skeleton
import proofs.«102038_j34668976013761_2_alg».proof.Proof.Gen.KernelIdeal.Launch
import proofs.«102038_j34668976013761_2_alg».proof.Proof.Gen.KernelIdeal.Points
import proofs.«102038_j34668976013761_2_alg».proof.Proof.Gen.KernelIdeal.Frame
import proofs.«102038_j34668976013761_2_alg».proof.Proof.Gen.ReferenceIdeal
import proofs.«102038_j34668976013761_2_alg».proof.Proof.Gen.Pre_finite_inputs
import proofs.«102038_j34668976013761_2_alg».proof.Proof.Gen.ReferenceIdeal.Run
import proofs.«102038_j34668976013761_2_alg».proof.Proof.Gen.ReferenceIdeal.Read
import proofs.«102038_j34668976013761_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
